-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S4x4096x4096 : Shape := ⟨3, ![4, 4096, 4096]⟩
abbrev S64x64 : Shape := ⟨2, ![64, 64]⟩
abbrev S64 : Shape := ⟨1, ![64]⟩
abbrev S192x64 : Shape := ⟨2, ![192, 64]⟩
abbrev S192 : Shape := ⟨1, ![192]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_

variable [Facts]

def fn_part2 {F : FTy → Type} [FloatOps F] (main_arg7 : FVec F S192 .f32) (main_arg8 : FVec F S192x64 .f32) (main_arg9 : FVec F S192 .f32) (main_v33 : IVec S_ 1) : IVec S_ 1 :=
  let main_v34 : FVec F S192 .f32 := Host.absf main_arg7
  let main_cst_12 : FVec F S_ .f32 := constant S_ .f32 0x7F800000#32
  let main_v35 : FVec F S192 .f32 := broadcastInDim S192 ![] bcast_S_S192 main_cst_12
  let main_v36 : IVec S192 1 := cmpf .olt main_v34 main_v35
  let main_c_13 : IVec S_ 1 := constantI S_ 1 1#1
  let main_v37 : IVec S_ 1 := (fun x v => Host.reduce IntOp.andi x v reducesTo_S192_S_d0 h_S_) main_v36 main_c_13
  let main_v38 : IVec S_ 1 := andi main_v33 main_v37
  let main_v39 : FVec F S192x64 .f32 := Host.absf main_arg8
  let main_cst_14 : FVec F S_ .f32 := constant S_ .f32 0x7F800000#32
  let main_v40 : FVec F S192x64 .f32 := broadcastInDim S192x64 ![] bcast_S_S192x64 main_cst_14
  let main_v41 : IVec S192x64 1 := cmpf .olt main_v39 main_v40
  let main_c_15 : IVec S_ 1 := constantI S_ 1 1#1
  let main_v42 : IVec S_ 1 := (fun x v => Host.reduce IntOp.andi x v reducesTo_S192x64_S_d0_1 h_S_) main_v41 main_c_15
  let main_v43 : IVec S_ 1 := andi main_v38 main_v42
  let main_v44 : FVec F S192 .f32 := Host.absf main_arg9
  let main_cst_16 : FVec F S_ .f32 := constant S_ .f32 0x7F800000#32
  let main_v45 : FVec F S192 .f32 := broadcastInDim S192 ![] bcast_S_S192 main_cst_16
  let main_v46 : IVec S192 1 := cmpf .olt main_v44 main_v45
  let main_c_17 : IVec S_ 1 := constantI S_ 1 1#1
  let main_v47 : IVec S_ 1 := (fun x v => Host.reduce IntOp.andi x v reducesTo_S192_S_d0 h_S_) main_v46 main_c_17
  let main_v48 : IVec S_ 1 := andi main_v43 main_v47
  main_v48

def fn_part1 {F : FTy → Type} [FloatOps F] (main_arg4 : FVec F S64x64 .f32) (main_arg5 : FVec F S64 .f32) (main_arg6 : FVec F S192x64 .f32) (main_arg7 : FVec F S192 .f32) (main_arg8 : FVec F S192x64 .f32) (main_arg9 : FVec F S192 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x64 .f32 := Host.absf main_arg6
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x4096x64 .f32) (main_arg1 : FVec F S4x4096x4096 .f32) (main_arg2 : FVec F S64x64 .f32) (main_arg3 : FVec F S64 .f32) (main_arg4 : FVec F S64x64 .f32) (main_arg5 : FVec F S64 .f32) (main_arg6 : FVec F S192x64 .f32) (main_arg7 : FVec F S192 .f32) (main_arg8 : FVec F S192x64 .f32) (main_arg9 : FVec F S192 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S4x4096x64 : Shape := ⟨3, ![4, 4096, 64]⟩
abbrev S4x4096x4096 : Shape := ⟨3, ![4, 4096, 4096]⟩
abbrev S64x64 : Shape := ⟨2, ![64, 64]⟩
abbrev S64 : Shape := ⟨1, ![64]⟩
abbrev S192x64 : Shape := ⟨2, ![192, 64]⟩
abbrev S192 : Shape := ⟨1, ![192]⟩
abbrev S16384x64 : Shape := ⟨2, ![16384, 64]⟩
abbrev S1x64 : Shape := ⟨2, ![1, 64]⟩
abbrev S2048x64 : Shape := ⟨2, ![2048, 64]⟩
abbrev S1x512x4096 : Shape := ⟨3, ![1, 512, 4096]⟩
abbrev S1x4096x64 : Shape := ⟨3, ![1, 4096, 64]⟩
abbrev S1x512x64 : Shape := ⟨3, ![1, 512, 64]⟩
abbrev S512x4096 : Shape := ⟨2, ![512, 4096]⟩
abbrev S4096x64 : Shape := ⟨2, ![4096, 64]⟩
abbrev S512x64 : Shape := ⟨2, ![512, 64]⟩

abbrev nBuf : Space → Nat
  | .hbm => 40
  | .vmem => 28
  | .smem => 0
  | _ => 0

abbrev bufTy : (tb : Table) → Fin (tcTables nBuf tb) → BufTy
  | .hbm, ⟨0, _⟩ => ⟨S4x4096x64, .f32⟩
  | .hbm, ⟨1, _⟩ => ⟨S4x4096x4096, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S192x64, .f32⟩
  | .hbm, ⟨7, _⟩ => ⟨S192, .f32⟩
  | .hbm, ⟨8, _⟩ => ⟨S192x64, .f32⟩
  | .hbm, ⟨9, _⟩ => ⟨S192, .f32⟩
  | .hbm, ⟨10, _⟩ => ⟨S16384x64, .f32⟩
  | .hbm, ⟨11, _⟩ => ⟨S1x64, .f32⟩
  | .hbm, ⟨12, _⟩ => ⟨S1x64, .f32⟩
  | .hbm, ⟨13, _⟩ => ⟨S16384x64, .f32⟩
  | .hbm, ⟨14, _⟩ => ⟨S4x4096x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64, .f32⟩
  | .hbm, ⟨22, _⟩ => ⟨S1x64, .f32⟩
  | .hbm, ⟨23, _⟩ => ⟨S64, .f32⟩
  | .hbm, ⟨24, _⟩ => ⟨S1x64, .f32⟩
  | .hbm, ⟨25, _⟩ => ⟨S64, .f32⟩
  | .hbm, ⟨26, _⟩ => ⟨S1x64, .f32⟩
  | .hbm, ⟨27, _⟩ => ⟨S64, .f32⟩
  | .hbm, ⟨28, _⟩ => ⟨S1x64, .f32⟩
  | .hbm, ⟨29, _⟩ => ⟨S64, .f32⟩
  | .hbm, ⟨30, _⟩ => ⟨S1x64, .f32⟩
  | .hbm, ⟨31, _⟩ => ⟨S64, .f32⟩
  | .hbm, ⟨32, _⟩ => ⟨S1x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S4x4096x64, .f32⟩
  | .local _ .vmem, ⟨0, _⟩ => ⟨S2048x64, .f32⟩
  | .local _ .vmem, ⟨1, _⟩ => ⟨S2048x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S2048x64, .f32⟩
  | .local _ .vmem, ⟨7, _⟩ => ⟨S2048x64, .f32⟩
  | .local _ .vmem, ⟨8, _⟩ => ⟨S1x512x4096, .f32⟩
  | .local _ .vmem, ⟨9, _⟩ => ⟨S1x512x4096, .f32⟩
  | .local _ .vmem, ⟨10, _⟩ => ⟨S1x4096x64, .f32⟩
  | .local _ .vmem, ⟨11, _⟩ => ⟨S1x4096x64, .f32⟩
  | .local _ .vmem, ⟨12, _⟩ => ⟨S1x512x64, .f32⟩
  | .local _ .vmem, ⟨13, _⟩ => ⟨S1x512x64, .f32⟩
  | .local _ .vmem, ⟨14, _⟩ => ⟨S64x64, .f32⟩
  | .local _ .vmem, ⟨15, _⟩ => ⟨S64x64, .f32⟩
  | .local _ .vmem, ⟨16, _⟩ => ⟨S64x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S64x64, .f32⟩
  | .local _ .vmem, ⟨21, _⟩ => ⟨S64x64, .f32⟩
  | .local _ .vmem, ⟨22, _⟩ => ⟨S64x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S1x512x64, .f32⟩
  | .local _ .vmem, ⟨27, _⟩ => ⟨S1x512x64, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg12_0 : Ref sig .tc := ⟨.vmem, 23, rfl⟩
abbrev cc1_stg13_0 : Ref sig .tc := ⟨.vmem, 24, rfl⟩
abbrev cc1_stg14_0 : Ref sig .tc := ⟨.vmem, 25, rfl⟩
abbrev cc1_stg15_0 : Ref sig .tc := ⟨.vmem, 26, rfl⟩
abbrev cc1_stg15_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem12_0 : DmaSem sig := 23
abbrev cc1_sem13_0 : DmaSem sig := 24
abbrev cc1_sem14_0 : DmaSem sig := 25
abbrev cc1_sem15_0 : DmaSem sig := 26
abbrev cc1_sem15_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S64x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S64x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S64x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S1x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S1x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 1 → Memref sig .tc .vmem S1x64 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 2 → Memref sig .tc .vmem S1x512x64 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

class Facts₀ : Prop where
  shapeCasts_S4x4096x64_S16384x64 : S4x4096x64.ShapeCasts S16384x64
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  shapeCasts_S16384x64_S4x4096x64 : S16384x64.ShapeCasts S4x4096x64
  slices_S192x64_S64x64_0_0 : S192x64.Slices ![0, 0] S64x64
  slices_S192x64_S64x64_64_0 : S192x64.Slices ![64, 0] S64x64
  slices_S192x64_S64x64_128_0 : S192x64.Slices ![128, 0] S64x64
  slices_S192_S64_0 : S192.Slices ![0] S64
  slices_S192_S64_64 : S192.Slices ![64] S64
  slices_S192_S64_128 : S192.Slices ![128] S64
  transposes_S64x64_S64x64_1_0 : S64x64.Transposes [1, 0] S64x64
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S64x64_S64x64 : S64x64.ShapeCasts S64x64
  broadcasts_S1x64_S512x64 : S1x64.Broadcasts S512x64
  shapeCasts_S512x64_S1x512x64 : S512x64.ShapeCasts S1x512x64
  dot_S2048x64_S64x64_S2048x64_1_0_0_1_n_n_wf : DotDims.WF S2048x64 S64x64 S2048x64 [1] [0] [0] [1] [] []
  dot_S512x4096_S4096x64_S512x64_1_0_0_1_n_n_wf : DotDims.WF S512x4096 S4096x64 S512x64 [1] [0] [0] [1] [] []
  dot_S512x64_S64x64_S512x64_1_0_0_1_n_n_wf : DotDims.WF S512x64 S64x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .f32 = 32 ∨ (Rect.block (s := S16384x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S16384x64.size a
  hwx0_5 : ∀ i : grid0.Coords, EltTy.bits .f32 = 32 ∨ (Rect.block (s := S16384x64) S2048x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x4096.size a ≤ S4x4096x4096.size a
  hwx1_0 : ∀ i : grid1.Coords, EltTy.bits .f32 = 32 ∨ (Rect.block (s := S4x4096x4096) S1x512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x64.size a ≤ S4x4096x64.size a
  hwx1_1 : ∀ i : grid1.Coords, EltTy.bits .f32 = 32 ∨ (Rect.block (s := S4x4096x64) S1x4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x64.size a ≤ S4x4096x64.size a
  hwx1_2 : ∀ i : grid1.Coords, EltTy.bits .f32 = 32 ∨ (Rect.block (s := S4x4096x64) S1x512x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x64.size a ≤ S64x64.size a
  hwx1_9 : ∀ i : grid1.Coords, EltTy.bits .f32 = 32 ∨ (Rect.block (s := S64x64) S64x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64x64.size a ≤ S64x64.size a
  hwx1_10 : ∀ i : grid1.Coords, EltTy.bits .f32 = 32 ∨ (Rect.block (s := S64x64) S64x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64x64.size a ≤ S64x64.size a
  hwx1_11 : ∀ i : grid1.Coords, EltTy.bits .f32 = 32 ∨ (Rect.block (s := S64x64) S64x64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x64.size a ≤ S1x64.size a
  hwx1_12 : ∀ i : grid1.Coords, EltTy.bits .f32 = 32 ∨ (Rect.block (s := S1x64) S1x64.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x64.size a ≤ S1x64.size a
  hwx1_13 : ∀ i : grid1.Coords, EltTy.bits .f32 = 32 ∨ (Rect.block (s := S1x64) S1x64.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x64.size a ≤ S1x64.size a
  hwx1_14 : ∀ i : grid1.Coords, EltTy.bits .f32 = 32 ∨ (Rect.block (s := S1x64) S1x64.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S1x512x64.size a ≤ S4x4096x64.size a
  hwx1_15 : ∀ i : grid1.Coords, EltTy.bits .f32 = 32 ∨ (Rect.block (s := S4x4096x64) S1x512x64.size (cc1_transform_15 i) (hinb1_15 i)).WholeWords (EltTy.packing .f32)

variable [Facts₀]

def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

abbrev win0_0 : Pipeline.Window sig grid0 :=
  Pipeline.Window.ofSpec (Memref.whole main_v0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2048x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S1x512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v16) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v26) S64x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v27) S64x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v28) S64x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v18) S1x64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v20) S1x64.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v22) S1x64.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v29) S1x512x64.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

class Facts : Prop extends Facts₀ where

variable [Facts]
-- ==== ReferenceIdeal.lean ====
abbrev S4x4096x64 : Shape := ⟨3, ![4, 4096, 64]⟩
abbrev S4x4096x4096 : Shape := ⟨3, ![4, 4096, 4096]⟩
abbrev S64x64 : Shape := ⟨2, ![64, 64]⟩
abbrev S64 : Shape := ⟨1, ![64]⟩
abbrev S192x64 : Shape := ⟨2, ![192, 64]⟩
abbrev S192 : Shape := ⟨1, ![192]⟩
abbrev S1x1x64 : Shape := ⟨3, ![1, 1, 64]⟩
abbrev S_ : Shape := ⟨0, ![]⟩
abbrev S4x4096x192 : Shape := ⟨3, ![4, 4096, 192]⟩
abbrev S1x1x192 : Shape := ⟨3, ![1, 1, 192]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x4096, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S192x64, .f32⟩
  | .hbm, ⟨7, _⟩ => ⟨S192, .f32⟩
  | .hbm, ⟨8, _⟩ => ⟨S192x64, .f32⟩
  | .hbm, ⟨9, _⟩ => ⟨S192, .f32⟩
  | .hbm, ⟨10, _⟩ => ⟨S4x4096x64, .f32⟩
  | .hbm, ⟨11, _⟩ => ⟨S1x1x64, .f32⟩
  | .hbm, ⟨12, _⟩ => ⟨S4x4096x64, .f32⟩
  | .hbm, ⟨13, _⟩ => ⟨S4x4096x64, .f32⟩
  | .hbm, ⟨14, _⟩ => ⟨S_, .f32⟩
  | .hbm, ⟨15, _⟩ => ⟨S4x4096x64, .f32⟩
  | .hbm, ⟨16, _⟩ => ⟨S4x4096x64, .f32⟩
  | .hbm, ⟨17, _⟩ => ⟨S4x4096x64, .f32⟩
  | .hbm, ⟨18, _⟩ => ⟨S1x1x64, .f32⟩
  | .hbm, ⟨19, _⟩ => ⟨S4x4096x64, .f32⟩
  | .hbm, ⟨20, _⟩ => ⟨S4x4096x64, .f32⟩
  | .hbm, ⟨21, _⟩ => ⟨S_, .f32⟩
  | .hbm, ⟨22, _⟩ => ⟨S4x4096x64, .f32⟩
  | .hbm, ⟨23, _⟩ => ⟨S4x4096x64, .f32⟩
  | .hbm, ⟨24, _⟩ => ⟨S4x4096x64, .f32⟩
  | .hbm, ⟨25, _⟩ => ⟨S_, .f32⟩
  | .hbm, ⟨26, _⟩ => ⟨S4x4096x64, .f32⟩
  | .hbm, ⟨27, _⟩ => ⟨S4x4096x64, .f32⟩
  | .hbm, ⟨28, _⟩ => ⟨S4x4096x192, .f32⟩
  | .hbm, ⟨29, _⟩ => ⟨S1x1x192, .f32⟩
  | .hbm, ⟨30, _⟩ => ⟨S4x4096x192, .f32⟩
  | .hbm, ⟨31, _⟩ => ⟨S4x4096x192, .f32⟩
  | .hbm, ⟨32, _⟩ => ⟨S4x4096x192, .f32⟩
  | .hbm, ⟨33, _⟩ => ⟨S1x1x192, .f32⟩
  | .hbm, ⟨34, _⟩ => ⟨S4x4096x192, .f32⟩
  | .hbm, ⟨35, _⟩ => ⟨S4x4096x192, .f32⟩
  | .hbm, ⟨36, _⟩ => ⟨S4x4096x64, .f32⟩
  | .hbm, ⟨37, _⟩ => ⟨S4x4096x64, .f32⟩
  | .hbm, ⟨38, _⟩ => ⟨S4x4096x64, .f32⟩
  | .hbm, ⟨39, _⟩ => ⟨S4x4096x64, .f32⟩
  | .hbm, ⟨40, _⟩ => ⟨S4x4096x64, .f32⟩
  | .hbm, ⟨41, _⟩ => ⟨S4x4096x64, .f32⟩
  | .hbm, ⟨42, _⟩ => ⟨S4x4096x64, .f32⟩
  | .hbm, ⟨43, _⟩ => ⟨S4x4096x64, .f32⟩
  | .hbm, ⟨44, _⟩ => ⟨S4x4096x64, .f32⟩
  | .hbm, ⟨45, _⟩ => ⟨S_, .f32⟩
  | .hbm, ⟨46, _⟩ => ⟨S4x4096x64, .f32⟩
  | .hbm, ⟨47, _⟩ => ⟨S4x4096x64, .f32⟩
  | .hbm, ⟨48, _⟩ => ⟨S_, .f32⟩
  | .hbm, ⟨49, _⟩ => ⟨S4x4096x64, .f32⟩
  | .hbm, ⟨50, _⟩ => ⟨S4x4096x64, .f32⟩
  | .hbm, ⟨51, _⟩ => ⟨S4x4096x64, .f32⟩
  | .hbm, ⟨52, _⟩ => ⟨S4x4096x64, .f32⟩
  | .hbm, ⟨53, _⟩ => ⟨S4x4096x64, .f32⟩
  | .hbm, ⟨54, _⟩ => ⟨S_, .f32⟩
  | .hbm, ⟨55, _⟩ => ⟨S4x4096x64, .f32⟩
  | .hbm, ⟨56, _⟩ => ⟨S4x4096x64, .f32⟩
  | .hbm, ⟨57, _⟩ => ⟨S_, .f32⟩
  | .hbm, ⟨58, _⟩ => ⟨S4x4096x64, .f32⟩
  | .hbm, ⟨59, _⟩ => ⟨S4x4096x64, .f32⟩
  | .hbm, ⟨60, _⟩ => ⟨S4x4096x64, .f32⟩
  | .hbm, ⟨61, _⟩ => ⟨S4x4096x64, .f32⟩
  | .hbm, ⟨62, _⟩ => ⟨S4x4096x64, .f32⟩
  | .hbm, ⟨63, _⟩ => ⟨S_, .f32⟩
  | .hbm, ⟨64, _⟩ => ⟨S4x4096x64, .f32⟩
  | .hbm, ⟨65, _⟩ => ⟨S4x4096x64, .f32⟩
  | .hbm, ⟨66, _⟩ => ⟨S4x4096x64, .f32⟩
  | .hbm, ⟨67, _⟩ => ⟨S4x4096x64, .f32⟩
  | .hbm, ⟨68, _⟩ => ⟨S4x4096x64, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_call2_cst : Ref sig .tc := ⟨.hbm, 25, rfl⟩
abbrev main_call2_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst : Ref sig .tc := ⟨.hbm, 45, rfl⟩
abbrev main_v29 : Ref sig .tc := ⟨.hbm, 46, rfl⟩
abbrev main_v30 : Ref sig .tc := ⟨.hbm, 47, rfl⟩
abbrev main_cst_0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_1 : Ref sig .tc := ⟨.hbm, 54, rfl⟩
abbrev main_v36 : Ref sig .tc := ⟨.hbm, 55, rfl⟩
abbrev main_v37 : Ref sig .tc := ⟨.hbm, 56, rfl⟩
abbrev main_cst_2 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_3 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  bcast_S_S4x4096x64 : S_.BroadcastsInDim S4x4096x64 (![] : Fin 0 → Fin S4x4096x64.rank)
  bcast_S192_S1x1x192_2 : S192.BroadcastsInDim S1x1x192 (![2] : Fin 1 → Fin S1x1x192.rank)
  bcast_S1x1x192_S4x4096x192_0_1_2 : S1x1x192.BroadcastsInDim S4x4096x192 (![0, 1, 2] : Fin 3 → Fin S4x4096x192.rank)
  slices_S4x4096x192_S4x4096x64_0_0_0 : S4x4096x192.Slices ![0, 0, 0] S4x4096x64
  slices_S4x4096x192_S4x4096x64_0_0_64 : S4x4096x192.Slices ![0, 0, 64] S4x4096x64
  slices_S4x4096x192_S4x4096x64_0_0_128 : S4x4096x192.Slices ![0, 0, 128] S4x4096x64
  dot_S4x4096x64_S64x64_S4x4096x64_2_0_01_1_n_n_wf : DotDims.WF S4x4096x64 S64x64 S4x4096x64 [2] [0] [0, 1] [1] [] []
  dot_S4x4096x4096_S4x4096x64_S4x4096x64_2_1_1_2_0_0_wf : DotDims.WF S4x4096x4096 S4x4096x64 S4x4096x64 [2] [1] [1] [2] [0] [0]
  dot_S4x4096x64_S192x64_S4x4096x192_2_1_01_0_n_n_wf : DotDims.WF S4x4096x64 S192x64 S4x4096x192 [2] [1] [0, 1] [0] [] []

variable [Facts₀]

def dot_S4x4096x64_S64x64_S4x4096x64_2_0_01_1_n_n : DotDims S4x4096x64 S64x64 S4x4096x64 where
  lhsContracting := [2]
  rhsContracting := [0]
  lhsNonContracting := [0, 1]
  rhsNonContracting := [1]
  lhsBatch := []
  rhsBatch := []
  wf := dot_S4x4096x64_S64x64_S4x4096x64_2_0_01_1_n_n_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf
def dot_S4x4096x64_S192x64_S4x4096x192_2_1_01_0_n_n : DotDims S4x4096x64 S192x64 S4x4096x192 where
  lhsContracting := [2]
  rhsContracting := [1]
  lhsNonContracting := [0, 1]
  rhsNonContracting := [0]
  lhsBatch := []
  rhsBatch := []
  wf := dot_S4x4096x64_S192x64_S4x4096x192_2_1_01_0_n_n_wf

class Facts : Prop extends Facts₀ where

variable [Facts]
-- ==== Proof.GruStep.lean ====
/-
  One step of message passing on a dense graph with a gated recurrent update, as a function on extended reals.

  Every node `(b, n)` carries a feature row `h[b, n, :]` of 64 entries. Its MESSAGE is a two-layer perceptron of that row,
  `relu (relu (h · W1 + b1) · W2 + b2)`. Node `(b, i)` AGGREGATES the messages of batch `b` with the weights of row `i` of the
  adjacency matrix, `relu (∑ j, A[b, i, j] · message[b, j, :])`. The new state mixes a candidate with the old row through two
  gates: with `i = aggregate · W_ihᵀ + b_ih` and `g = h · W_hhᵀ + b_hh` (192 columns each: reset, update, candidate),
  `r = σ(i_r + g_r)`, `z = σ(i_z + g_z)`, `c = tanh (i_c + r · g_c)`, and the result is `(1 - z) · c + z · h`.

  Everything is built from three pieces: an inner product of two rows of 64 plus a bias (`lin`), the positive part (`relu`)
  and the gate mix (`gateMix`). The arrays enter only through their entries, so the same pieces describe one row of a tile
  and one entry of a whole array. The words of the floats 0 and 1 are kept as words: both programs spell them the same way.
-/
import Idealize.ShloMosaic.PureOps.Ideal
import Idealize.ShloMosaic.PureOps.Ideal.Laws
import Idealize.ShloMosaic.Lib.ValueIdx

noncomputable section

namespace Cert.GruStep

open Idealize.ShloMosaic Idealize.ShloMosaic.ValueIdx

/-- The float32 word of zero, read as an extended real. -/
abbrev zeroWord : EReal := Ideal.ofBits .f32 0x00000000#32
/-- The float32 word of one, read as an extended real. -/
abbrev oneWord : EReal := Ideal.ofBits .f32 0x3F800000#32

/-- The word of one denotes one. -/
theorem oneWord_eq : oneWord = 1 := by
  show Ideal.ofBits .f32 0x3F800000#32 = 1
  simp [Ideal.ofBits, Ideal.ieee, -EReal.coe_mul]; norm_num

/-- The inner product of two rows of 64 entries, plus a bias. -/
def lin (x w : Fin 64 → EReal) (b : EReal) : EReal := (∑ j : Fin 64, x j * w j) + b

/-- The positive part. -/
def relu (x : EReal) : EReal := max x zeroWord

/-- Column `k` of the two-layer perceptron of a row `x`: `relu (relu (x · W1 + b1) · W2 + b2)`. -/
def mlp (x : Fin 64 → EReal) (W1 : Fin 64 → Fin 64 → EReal) (b1 : Fin 64 → EReal) (W2 : Fin 64 → Fin 64 → EReal)
    (b2 : Fin 64 → EReal) (k : Fin 64) : EReal :=
  relu (lin (fun j => relu (lin x (fun i => W1 i j) (b1 j))) (fun j => W2 j k) (b2 k))

/-- A row `a` of 4096 adjacency weights against one column `m` of the 4096 messages of its batch, positive part. -/
def aggregate (a m : Fin 4096 → EReal) : EReal := relu (∑ j : Fin 4096, a j * m j)

/-- The gated update from the six gate pre-activations and the old entry: `(1 - z) · tanh (i_c + r · g_c) + z · h` with
    `r = σ (i_r + g_r)`, `z = σ (i_z + g_z)`. -/
def gateMix (ir iz ic gr gz gc hOld : EReal) : EReal :=
  (oneWord - Ideal.logistic (iz + gz)) * Ideal.tanh (ic + Ideal.logistic (ir + gr) * gc) + Ideal.logistic (iz + gz) * hOld

/-- Row `k` of the reset block, of the update block and of the candidate block of a 192-row gate matrix. -/
abbrev rowR (k : Fin 64) : Fin 192 := ⟨k.val, by have := k.isLt; omega⟩
abbrev rowZ (k : Fin 64) : Fin 192 := ⟨64 + k.val, by have := k.isLt; omega⟩
abbrev rowC (k : Fin 64) : Fin 192 := ⟨128 + k.val, by have := k.isLt; omega⟩

section Arrays

variable (h : (⟨3, ![4, 4096, 64]⟩ : Shape).Idx → EReal) (A : (⟨3, ![4, 4096, 4096]⟩ : Shape).Idx → EReal)
  (W1 : (⟨2, ![64, 64]⟩ : Shape).Idx → EReal) (b1 : (⟨1, ![64]⟩ : Shape).Idx → EReal)
  (W2 : (⟨2, ![64, 64]⟩ : Shape).Idx → EReal) (b2 : (⟨1, ![64]⟩ : Shape).Idx → EReal)
  (Wih : (⟨2, ![192, 64]⟩ : Shape).Idx → EReal) (bih : (⟨1, ![192]⟩ : Shape).Idx → EReal)
  (Whh : (⟨2, ![192, 64]⟩ : Shape).Idx → EReal) (bhh : (⟨1, ![192]⟩ : Shape).Idx → EReal)

/-- The message of node `(b, n)`, column `k`. -/
def message (b : Fin 4) (n : Fin 4096) (k : Fin 64) : EReal :=
  mlp (fun j => h (ix3 b n j)) (fun i j => W1 (ix2 i j)) (fun j => b1 (ix1 j)) (fun i j => W2 (ix2 i j)) (fun j => b2 (ix1 j)) k

/-- What node `(b, i)` aggregates, column `k`. -/
def aggregated (b : Fin 4) (i : Fin 4096) (k : Fin 64) : EReal :=
  aggregate (fun j => A (ix3 b i j)) (fun j => message h W1 b1 W2 b2 b j k)

/-- Gate pre-activation `g` (one of 192) of node `(b, n)` from the aggregated messages. -/
def gateIn (b : Fin 4) (n : Fin 4096) (g : Fin 192) : EReal :=
  lin (aggregated h A W1 b1 W2 b2 b n) (fun j => Wih (ix2 g j)) (bih (ix1 g))

/-- Gate pre-activation `g` of node `(b, n)` from its own state. -/
def gateHid (b : Fin 4) (n : Fin 4096) (g : Fin 192) : EReal :=
  lin (fun j => h (ix3 b n j)) (fun j => Whh (ix2 g j)) (bhh (ix1 g))

/-- THE STEP: the new state of every node, entry by entry. -/
def step : (⟨3, ![4, 4096, 64]⟩ : Shape).Idx → EReal := fun i =>
  gateMix (gateIn h A W1 b1 W2 b2 Wih bih (i 0) (i 1) (rowR (i 2))) (gateIn h A W1 b1 W2 b2 Wih bih (i 0) (i 1) (rowZ (i 2)))
    (gateIn h A W1 b1 W2 b2 Wih bih (i 0) (i 1) (rowC (i 2)))
    (gateHid h Whh bhh (i 0) (i 1) (rowR (i 2))) (gateHid h Whh bhh (i 0) (i 1) (rowZ (i 2))) (gateHid h Whh bhh (i 0) (i 1) (rowC (i 2)))
    (h (ix3 (i 0) (i 1) (i 2)))

end Arrays

end Cert.GruStep

end
-- ==== Proof.MlpTile.lean ====
/-
  The message perceptron on one tile of 2048 rows.

  The first region's body reads a tile `x` of 2048 feature rows, the two weight matrices `W1`, `W2` ([64,64]) and the two
  bias rows `b1`, `b2` ([1,64]) and stores ONE value: `max (max (x · W1 + b1) 0 · W2 + b2) 0`, each product taken into a
  zero accumulator and each bias row added to every row of the tile. Over the extended reals the casts to the narrower
  float format are the identity, so the stored value is two copies of one LAYER, `a ↦ max (a · W + b) 0`, one on top of
  the other (`payload_layers`, by unfolding).

  Entry (p, q) of a layer is the positive part of the inner product of row `p` of `a` with column `q` of `W`, plus entry
  `q` of the bias (`layerTile_apply`): the product's entry is the sum over the one contracted axis of the operands' entries
  at (p, j) and (j, q) (`product_apply`), and the broadcast bias reads its one row (`bias_apply`). Two layers make column
  `q` of the perceptron of row `p` (`payload_apply`), in the words of `Cert.GruStep`: `lin`, `relu`, `mlp`.
-/
import proofs.«132970_j22282290331997_1_alg».proof.Proof.Gen.KernelIdeal.Frame
import proofs.«132970_j22282290331997_1_alg».proof.Proof.GruStep
import Idealize.ShloMosaic.Lib.Pipeline.Value
import Idealize.ShloMosaic.Lib.ValueIdx
import Idealize.ShloMosaic.PureOps.Ideal.Laws

set_option maxRecDepth 16384

noncomputable section

namespace Cert.MlpRegion

open Idealize.ShloMosaic Idealize.ShloMosaic.TcCoe Idealize.ShloMosaic.ValueIdx Idealize.SL.Sem
open Cert.KernelIdeal Cert.KernelIdeal.Gen

/-! ## The stored value as two layers -/

/-- One layer as an operation on whole tiles: the product into a zero accumulator, the bias row added to every row, the
    positive part. -/
def layerTile (a : FVec Ideal S2048x64 .f32) (w : Vec Ideal S64x64 .f32) (b : Vec Ideal S1x64 .f32) : FVec Ideal S2048x64 .f32 :=
  maximumf
    (addf
      (matmul dot_S2048x64_S64x64_S2048x64_1_0_0_1_n_n none (truncf .bf16 a bitsLt_bf16_f32) (truncf .bf16 w bitsLt_bf16_f32)
        (constant S2048x64 .f32 0x00000000#32))
      (broadcastTo S2048x64 (shapeCast S1x64 b shapeCasts_S1x64_S1x64) broadcasts_S1x64_S2048x64))
    (broadcast S2048x64 (Scalar.ofBits .f32 0x00000000#32))

/-- The body's stored value is two layers, one on top of the other. -/
theorem payload_layers (x0 : Vec Ideal S2048x64 .f32) (x1 : Vec Ideal S64x64 .f32) (x2 : Vec Ideal S1x64 .f32)
    (x3 : Vec Ideal S64x64 .f32) (x4 : Vec Ideal S1x64 .f32) :
    k0_pay1 x0 x1 x2 x3 x4 = layerTile (layerTile (shapeCast S2048x64 x0 shapeCasts_S2048x64_S2048x64) x1 x2) x3 x4 := rfl

/-! ## The tile product at an entry -/

/-- The operand indices of the product at output index `i` and contraction index `k`: the left operand is read at row
    `i 0`, column `k`; the right at row `k`, column `i 1`. -/
theorem lhs_row (i : S2048x64.Idx) (k : dot_S2048x64_S64x64_S2048x64_1_0_0_1_n_n.contr.Idx) :
    (dot_S2048x64_S64x64_S2048x64_1_0_0_1_n_n.lhsIdx i k 0).val = (i 0).val := by
  unfold DotDims.lhsIdx
  rw [dif_neg (show ¬(0 : Fin S2048x64.rank) ∈ dot_S2048x64_S64x64_S2048x64_1_0_0_1_n_n.lhsBatch by decide),
    dif_pos (show (0 : Fin S2048x64.rank) ∈ dot_S2048x64_S64x64_S2048x64_1_0_0_1_n_n.lhsNonContracting by decide)]
  rfl

theorem lhs_col (i : S2048x64.Idx) (k : dot_S2048x64_S64x64_S2048x64_1_0_0_1_n_n.contr.Idx) :
    (dot_S2048x64_S64x64_S2048x64_1_0_0_1_n_n.lhsIdx i k 1).val = (k ⟨0, by decide⟩).val :=
  dot_S2048x64_S64x64_S2048x64_1_0_0_1_n_n.lhsIdx_val_of_single rfl i k

theorem rhs_row (i : S2048x64.Idx) (k : dot_S2048x64_S64x64_S2048x64_1_0_0_1_n_n.contr.Idx) :
    (dot_S2048x64_S64x64_S2048x64_1_0_0_1_n_n.rhsIdx i k 0).val = (k ⟨0, by decide⟩).val :=
  dot_S2048x64_S64x64_S2048x64_1_0_0_1_n_n.rhsIdx_val_of_single rfl i k

theorem rhs_col (i : S2048x64.Idx) (k : dot_S2048x64_S64x64_S2048x64_1_0_0_1_n_n.contr.Idx) :
    (dot_S2048x64_S64x64_S2048x64_1_0_0_1_n_n.rhsIdx i k 1).val = (i 1).val := by
  unfold DotDims.rhsIdx
  rw [dif_neg (show ¬(1 : Fin S64x64.rank) ∈ dot_S2048x64_S64x64_S2048x64_1_0_0_1_n_n.rhsBatch by decide),
    dif_pos (show (1 : Fin S64x64.rank) ∈ dot_S2048x64_S64x64_S2048x64_1_0_0_1_n_n.rhsNonContracting by decide)]
  rfl

/-- Entry (p, q) of a [2048,64] × [64,64] product into a zero accumulator: row p of the left against column q of the right. -/
theorem product_apply {φ₁ φ₂ : FTy} (a : FVec Ideal S2048x64 φ₁) (w : FVec Ideal S64x64 φ₂) (p : Fin 2048) (q : Fin 64) :
    matmul dot_S2048x64_S64x64_S2048x64_1_0_0_1_n_n none a w (constant S2048x64 .f32 0x00000000#32) (ix2 p q)
      = ∑ j : Fin 64, a (ix2 p j) * w (ix2 j q) := by
  simp only [matmul]
  rw [Ideal.matmul_constant_zero_apply, ← Equiv.sum_comp (ValueIdx.contrEquiv1 dot_S2048x64_S64x64_S2048x64_1_0_0_1_n_n 64 rfl rfl).symm]
  refine Finset.sum_congr rfl fun k _ => ?_
  have hk := ValueIdx.contrEquiv1_symm_val dot_S2048x64_S64x64_S2048x64_1_0_0_1_n_n 64 rfl rfl k
  have el : dot_S2048x64_S64x64_S2048x64_1_0_0_1_n_n.lhsIdx (ix2 p q) ((ValueIdx.contrEquiv1 dot_S2048x64_S64x64_S2048x64_1_0_0_1_n_n 64 rfl rfl).symm k) = ix2 p k := funext fun ax => Fin.ext (by
    match ax with
    | ⟨0, _⟩ => exact lhs_row _ _
    | ⟨1, _⟩ => exact (lhs_col _ _).trans hk)
  have er : dot_S2048x64_S64x64_S2048x64_1_0_0_1_n_n.rhsIdx (ix2 p q) ((ValueIdx.contrEquiv1 dot_S2048x64_S64x64_S2048x64_1_0_0_1_n_n 64 rfl rfl).symm k) = ix2 k q := funext fun ax => Fin.ext (by
    match ax with
    | ⟨0, _⟩ => exact (rhs_row _ _).trans hk
    | ⟨1, _⟩ => exact rhs_col _ _)
  rw [el, er]

/-- The bias row broadcast over the tile reads, at (p, q), the row's entry q. -/
theorem bias_apply (b : Vec Ideal S1x64 .f32) (p : Fin 2048) (q : Fin 64) :
    broadcastTo S2048x64 (shapeCast S1x64 b shapeCasts_S1x64_S1x64) broadcasts_S1x64_S2048x64 (ix2 p q) = b (ix2 0 q) := by
  rw [shapeCast_self]
  refine broadcastTo_apply b broadcasts_S1x64_S2048x64 (ix2 p q) (ix2 (0 : Fin 1) q) fun ax => ?_
  match ax with
  | ⟨0, _⟩ => rfl
  | ⟨1, _⟩ => show q.val = if (64 : Nat) = 1 then 0 else q.val; rw [if_neg (by decide)]

/-- One layer at an entry: the positive part of row p against column q of the weights, plus the bias's entry q. -/
theorem layerTile_apply (a : FVec Ideal S2048x64 .f32) (w : Vec Ideal S64x64 .f32) (b : Vec Ideal S1x64 .f32) (p : Fin 2048) (q : Fin 64) :
    layerTile a w b (ix2 p q) = GruStep.relu (GruStep.lin (fun j => a (ix2 p j)) (fun j => w (ix2 j q)) (b (ix2 0 q))) := by
  unfold layerTile
  rw [maximumf_apply, addf_apply, broadcast_apply, product_apply, bias_apply]
  rfl

/-- THE BODY'S STORED VALUE AT AN ENTRY: column q of the perceptron of row p of the feature tile. -/
theorem payload_apply (x0 : Vec Ideal S2048x64 .f32) (x1 : Vec Ideal S64x64 .f32) (x2 : Vec Ideal S1x64 .f32)
    (x3 : Vec Ideal S64x64 .f32) (x4 : Vec Ideal S1x64 .f32) (p : Fin 2048) (q : Fin 64) :
    k0_pay1 x0 x1 x2 x3 x4 (ix2 p q)
      = GruStep.mlp (fun j => x0 (ix2 p j)) (fun a b => x1 (ix2 a b)) (fun j => x2 (ix2 0 j)) (fun a b => x3 (ix2 a b)) (fun j => x4 (ix2 0 j)) q := by
  rw [payload_layers, layerTile_apply, shapeCast_self]
  unfold GruStep.mlp
  simp only [layerTile_apply]

end Cert.MlpRegion

end
-- ==== Proof.MlpRegion.lean ====
/-
  The message array after the first region.

  The first region runs over 8 grid points. At point `t` it reads rows `2048 t … 2048 t + 2047` of the flattened feature
  array ([16384, 64]), the two weight matrices and the two bias rows whole, and writes back rows `2048 t … 2048 t + 2047`
  of the message array ([16384, 64]). The body's stored value at entry (p, q) of its tile is column `q` of the perceptron of
  row `p` of the feature tile (`payload_apply`). So:

  * each window's block, read off the arrays as the region finds them, is the stated part of its array
    (`feature_block_apply`; `weights1_block`, `bias1_block`, `weights2_block`, `bias2_block`: the whole array), the block
    indices being decided once over the 8 points (`block_indices`);
  * what point `t` writes back is block `t` of ONE function of the arrays, `messages`: at (r, k), column `k` of the
    perceptron of row `r` of the features (`tile_written`);
  * row `r` lies in the block of point `r / 2048`, so the 8 blocks cover the array (`covered`), and after the 8
    write-backs the array IS `messages` (`array_eq`), whatever the buffers held at the region's entry.
-/
import proofs.«132970_j22282290331997_1_alg».proof.Proof.MlpTile
import proofs.«132970_j22282290331997_1_alg».proof.Proof.Gen.KernelIdeal.Frame
import proofs.«132970_j22282290331997_1_alg».proof.Proof.GruStep
import Idealize.ShloMosaic.Lib.Pipeline.Value
import Idealize.ShloMosaic.Lib.ValueIdx
import Idealize.ShloMosaic.PureOps.Ideal.Laws

set_option maxRecDepth 16384

noncomputable section

namespace Cert.MlpRegion

open Idealize.ShloMosaic Idealize.ShloMosaic.TcCoe Idealize.ShloMosaic.ValueIdx Idealize.SL.Sem
open Cert.KernelIdeal Cert.KernelIdeal.Gen
open Idealize.ShloMosaic.Pipeline (Dat)

/-- The array of all messages, rows flattened: row `r` is the perceptron of row `r` of the flattened features. -/
def messages (x : S16384x64.Idx → EReal) (w1 : S64x64.Idx → EReal) (c1 : S1x64.Idx → EReal) (w2 : S64x64.Idx → EReal)
    (c2 : S1x64.Idx → EReal) : S16384x64.Idx → EReal := fun i =>
  Cert.GruStep.mlp (fun j => x (ix2 (i 0) j)) (fun a b => w1 (ix2 a b)) (fun j => c1 (ix2 0 j)) (fun a b => w2 (ix2 a b))
    (fun j => c2 (ix2 0 j)) (i 1)

variable (V : (c : Dev nD) → (b : Ref sig .tc) → Buf (Elt Ideal) ((c : Thread nD τ).loc b))

/-! ## Where each window's block sits -/

theorem zero_offsets : (![0, 0] : Fin 2 → Nat) = fun _ => 0 := funext fun a => by fin_cases a <;> rfl

/-- The printed index maps, decided over the 8 grid points: at point `t` the feature window and the message window are
    both at block row `t`, block column 0; the weights' and the biases' windows stay at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The feature window's block at point `t` is rows `2048 t … 2048 t + 2047` of the feature array: its entry (p, j) is the
    array's at any index `k` with those coordinates. -/
theorem feature_block_apply (c : Dev nD) (t : Fin cfg0.N) (p : Fin 2048) (j : Fin 64) (k : S16384x64.Idx)
    (hk0 : (k 0).val = 2048 * t.val + p.val) (hk1 : (k 1).val = j.val) :
    (iblk0 (F := Ideal) V c 0 t : Vec Ideal S2048x64 .f32) (ix2 p j) = (V c main_v0 : S16384x64.Idx → EReal) k := by
  obtain ⟨f0, f1, -⟩ := block_indices t
  show (V c main_v0 : S16384x64.Idx → EReal) (((cfg0.win 0).blk t).view.emb (ix2 p j)) = V c main_v0 k
  refine congrArg (V c main_v0 : S16384x64.Idx → EReal) (funext fun a => Fin.ext ?_)
  match a with
  | ⟨0, _⟩ => show win0_0.index t (0 : Fin 2) * 2048 + 1 * p.val = (k 0).val; rw [f0, hk0]; omega
  | ⟨1, _⟩ => show win0_0.index t (1 : Fin 2) * 64 + 1 * j.val = (k 1).val; rw [f1, hk1]; omega

/-- The first weight matrix's window is the whole matrix at every point. -/
theorem weights1_block (c : Dev nD) (t : Fin cfg0.N) :
    (iblk0 (F := Ideal) V c 1 t : Vec Ideal S64x64 .f32) = (V c main_arg2 : S64x64.Idx → EReal) := by
  obtain ⟨-, -, f0, f1, -⟩ := block_indices t
  funext z
  show (V c main_arg2 : S64x64.Idx → EReal) (((cfg0.win 1).blk t).view.emb z) = V c main_arg2 z
  refine congrArg (V c main_arg2 : S64x64.Idx → EReal) (funext fun a => Fin.ext ?_)
  match a with
  | ⟨0, _⟩ => show win0_1.index t (0 : Fin 2) * 64 + 1 * (z 0).val = (z 0).val; rw [f0]; omega
  | ⟨1, _⟩ => show win0_1.index t (1 : Fin 2) * 64 + 1 * (z 1).val = (z 1).val; rw [f1]; omega

/-- The first bias row's window is the whole row at every point. -/
theorem bias1_block (c : Dev nD) (t : Fin cfg0.N) :
    (iblk0 (F := Ideal) V c 2 t : Vec Ideal S1x64 .f32) = (V c main_v1 : S1x64.Idx → EReal) := by
  obtain ⟨-, -, -, -, f0, f1, -⟩ := block_indices t
  funext z
  show (V c main_v1 : S1x64.Idx → EReal) (((cfg0.win 2).blk t).view.emb z) = V c main_v1 z
  refine congrArg (V c main_v1 : S1x64.Idx → EReal) (funext fun a => Fin.ext ?_)
  match a with
  | ⟨0, _⟩ => show win0_2.index t (0 : Fin 2) * 1 + 1 * (z 0).val = (z 0).val; rw [f0]; omega
  | ⟨1, _⟩ => show win0_2.index t (1 : Fin 2) * 64 + 1 * (z 1).val = (z 1).val; rw [f1]; omega

/-- The second weight matrix's window is the whole matrix at every point. -/
theorem weights2_block (c : Dev nD) (t : Fin cfg0.N) :
    (iblk0 (F := Ideal) V c 3 t : Vec Ideal S64x64 .f32) = (V c main_arg4 : S64x64.Idx → EReal) := by
  obtain ⟨-, -, -, -, -, -, f0, f1, -⟩ := block_indices t
  funext z
  show (V c main_arg4 : S64x64.Idx → EReal) (((cfg0.win 3).blk t).view.emb z) = V c main_arg4 z
  refine congrArg (V c main_arg4 : S64x64.Idx → EReal) (funext fun a => Fin.ext ?_)
  match a with
  | ⟨0, _⟩ => show win0_3.index t (0 : Fin 2) * 64 + 1 * (z 0).val = (z 0).val; rw [f0]; omega
  | ⟨1, _⟩ => show win0_3.index t (1 : Fin 2) * 64 + 1 * (z 1).val = (z 1).val; rw [f1]; omega

/-- The second bias row's window is the whole row at every point. -/
theorem bias2_block (c : Dev nD) (t : Fin cfg0.N) :
    (iblk0 (F := Ideal) V c 4 t : Vec Ideal S1x64 .f32) = (V c main_v2 : S1x64.Idx → EReal) := by
  obtain ⟨-, -, -, -, -, -, -, -, f0, f1, -⟩ := block_indices t
  funext z
  show (V c main_v2 : S1x64.Idx → EReal) (((cfg0.win 4).blk t).view.emb z) = V c main_v2 z
  refine congrArg (V c main_v2 : S1x64.Idx → EReal) (funext fun a => Fin.ext ?_)
  match a with
  | ⟨0, _⟩ => show win0_4.index t (0 : Fin 2) * 1 + 1 * (z 0).val = (z 0).val; rw [f0]; omega
  | ⟨1, _⟩ => show win0_4.index t (1 : Fin 2) * 64 + 1 * (z 1).val = (z 1).val; rw [f1]; omega

/-! ## What each point writes back -/

/-- The perceptron's column depends only on the entries it is given. -/
theorem mlp_congr {x x' : Fin 64 → EReal} {W1 W1' : Fin 64 → Fin 64 → EReal} {b1 b1' : Fin 64 → EReal}
    {W2 W2' : Fin 64 → Fin 64 → EReal} {b2 b2' : Fin 64 → EReal} {k k' : Fin 64}
    (hx : ∀ j, x j = x' j) (h1 : ∀ a b, W1 a b = W1' a b) (hb1 : ∀ j, b1 j = b1' j) (h2 : ∀ a b, W2 a b = W2' a b)
    (hb2 : ∀ j, b2 j = b2' j) (hk : k = k') :
    Cert.GruStep.mlp x W1 b1 W2 b2 k = Cert.GruStep.mlp x' W1' b1' W2' b2' k' := by
  obtain rfl : x = x' := funext hx
  obtain rfl : W1 = W1' := funext fun a => funext (h1 a)
  obtain rfl : b1 = b1' := funext hb1
  obtain rfl : W2 = W2' := funext fun a => funext (h2 a)
  obtain rfl : b2 = b2' := funext hb2
  rw [hk]

/-- WHAT POINT `t` WRITES BACK is block `t` of the message array of the arrays as the region finds them. -/
theorem tile_written (c : Dev nD) (t : Fin cfg0.N) :
    (dat0 (F := Ideal) V c).flushed 5 t
      = ((cfg0.win 5).blk t).view.read (Elt Ideal) (messages (V c main_v0) (V c main_arg2) (V c main_v1) (V c main_arg4) (V c main_v2)) := by
  show (cfg0.win 5).cut (grid0.coords t) ((dat0 V c).after 5 t) = _
  rw [after0_5]
  unfold out0_5
  rw [View.canon_unit_zero zero_offsets]
  simp only [View.ld_unit_zero (S := S2048x64) zero_offsets, View.ld_unit_zero (S := S64x64) zero_offsets, View.ld_unit_zero (S := S1x64) zero_offsets]
  obtain ⟨-, -, -, -, -, -, -, -, -, -, f0, f1⟩ := block_indices t
  funext y
  have hy0 : (y 0).val < 2048 := (y 0).isLt
  have hy1 : (y 1).val < 64 := (y 1).isLt
  have hx : (cfg0.win 5).xinj (grid0.coords t) y = ix2 (⟨(y 0).val, hy0⟩ : Fin 2048) (⟨(y 1).val, hy1⟩ : Fin 64) :=
    funext fun a => by
      match a with
      | ⟨0, _⟩ => rfl
      | ⟨1, _⟩ => rfl
  show k0_pay1 (iblk0 V c 0 t) (iblk0 V c 1 t) (iblk0 V c 2 t) (iblk0 V c 3 t) (iblk0 V c 4 t) ((cfg0.win 5).xinj (grid0.coords t) y)
    = messages (V c main_v0) (V c main_arg2) (V c main_v1) (V c main_arg4) (V c main_v2) (((cfg0.win 5).blk t).view.emb y)
  refine (congrArg (k0_pay1 (iblk0 V c 0 t) (iblk0 V c 1 t) (iblk0 V c 2 t) (iblk0 V c 3 t) (iblk0 V c 4 t)) hx).trans ?_
  refine (payload_apply (iblk0 V c 0 t) (iblk0 V c 1 t) (iblk0 V c 2 t) (iblk0 V c 3 t) (iblk0 V c 4 t) ⟨(y 0).val, hy0⟩ ⟨(y 1).val, hy1⟩).trans ?_
  unfold messages
  refine mlp_congr (fun j => ?_) (fun a b => ?_) (fun j => ?_) (fun a b => ?_) (fun j => ?_) (Fin.ext ?_)
  · exact feature_block_apply V c t ⟨(y 0).val, hy0⟩ j (ix2 ((((cfg0.win 5).blk t).view.emb y) 0) j)
      (by show win0_5.index t (0 : Fin 2) * 2048 + 1 * (y 0).val = 2048 * t.val + (y 0).val; rw [f0]; omega) rfl
  · exact congrFun (weights1_block V c t) (ix2 a b)
  · exact congrFun (bias1_block V c t) (ix2 0 j)
  · exact congrFun (weights2_block V c t) (ix2 a b)
  · exact congrFun (bias2_block V c t) (ix2 0 j)
  · show (y 1).val = win0_5.index t (1 : Fin 2) * 64 + 1 * (y 1).val
    rw [f1]; omega

/-! ## The array after the eight write-backs -/

/-- An index of the message array is in point `t`'s block iff each coordinate is in the block's range on its axis. -/
theorem mem_block (t : Fin cfg0.N) (i : S16384x64.Idx) :
    i ∈ ((cfg0.win 5).blk t).view.set ↔ ∀ a : Fin 2, win0_5.index t a * S2048x64.size a ≤ (i a).val ∧ (i a).val < win0_5.index t a * S2048x64.size a + S2048x64.size a := by
  show i ∈ ((View.whole main_v3).slice (win0_5.rect t)).set ↔ _
  rw [View.set_slice_whole, Rect.mem_set_unit]
  exact Iff.rfl

/-- The eight blocks tile the array: row `r` is in the block of point `r / 2048`. -/
theorem covered (i : S16384x64.Idx) : ∃ t : Fin cfg0.N, (cfg0.win 5).flush t = true ∧ i ∈ ((cfg0.win 5).blk t).view.set := by
  have hi0 : (i 0).val < 16384 := (i 0).isLt
  have hi1 : (i 1).val < 64 := (i 1).isLt
  have hN : grid0.N = 8 := N_0
  obtain ⟨t, ht⟩ : ∃ t : Fin cfg0.N, t.val = (i 0).val / 2048 :=
    ⟨⟨(i 0).val / 2048, by show (i 0).val / 2048 < grid0.N; rw [hN]; omega⟩, rfl⟩
  obtain ⟨-, -, -, -, -, -, -, -, -, -, f0, f1⟩ := block_indices t
  refine ⟨t, flush0_5 t, ?_⟩
  rw [mem_block]
  intro a
  match a with
  | ⟨0, _⟩ =>
    show win0_5.index t (0 : Fin 2) * 2048 ≤ (i 0).val ∧ (i 0).val < win0_5.index t (0 : Fin 2) * 2048 + 2048
    rw [f0, ht]; omega
  | ⟨1, _⟩ =>
    show win0_5.index t (1 : Fin 2) * 64 ≤ (i 1).val ∧ (i 1).val < win0_5.index t (1 : Fin 2) * 64 + 64
    rw [f1]; omega

/-- THE MESSAGE ARRAY after the region's eight write-backs: at (r, k), column `k` of the perceptron of row `r` of the
    features, whatever the buffers held at the region's entry. -/
theorem array_eq (c : Dev nD) :
    (dat0 (F := Ideal) V c).arrAt 5 cfg0.N
      = messages (V c main_v0) (V c main_arg2) (V c main_v1) (V c main_arg4) (V c main_v2) :=
  (dat0 (F := Ideal) V c).arrAt_eq_of_cover 5 (messages (V c main_v0) (V c main_arg2) (V c main_v1) (V c main_arg4) (V c main_v2))
    (fun t _ => tile_written V c t) covered

end Cert.MlpRegion

end
-- ==== Proof.GruTile.lean ====
/-
  The second region's tile, entry by entry. At one grid point the body holds a tile of 512 adjacency rows (each of 4096
  weights), the 4096 messages of the batch, the tile's 512 old feature rows, and the six 64 by 64 gate matrices with their
  bias rows. A matrix product into a zero accumulator, read at `(p, q)`, is the sum over the contracted index of the
  products of row `p` of the left factor with column `q` of the right one; a bias row broadcast over the tile adds its entry
  `q`. So every gate pre-activation at `(p, q)` is an inner product of a row of 64 with a column of 64 plus a bias (`lin`),
  the aggregated message at `(p, j)` is the positive part of a sum over the 4096 nodes (`aggregate`), and the stored value is
  the gate mix of the six pre-activations and the old entry.
-/
import proofs.«132970_j22282290331997_1_alg».proof.Proof.Gen.KernelIdeal.Skeleton
import proofs.«132970_j22282290331997_1_alg».proof.Proof.GruStep
import Idealize.ShloMosaic.Lib.Pipeline.Value
import Idealize.ShloMosaic.Lib.ValueIdx
import Idealize.ShloMosaic.Lib.ValueLayout
import Idealize.ShloMosaic.PureOps.Ideal.Laws

noncomputable section

namespace Cert.GruTile

open Idealize.ShloMosaic Idealize.ShloMosaic.TcCoe Idealize.ShloMosaic.ValueIdx
open Cert.KernelIdeal Cert.KernelIdeal.Gen Cert.GruStep

/-- The product of a 512 by 4096 tile with a 4096 by 64 matrix. -/
abbrev dotWide := dot_S512x4096_S4096x64_S512x64_1_0_0_1_n_n
/-- The product of a 512 by 64 tile with a 64 by 64 matrix. -/
abbrev dotNarrow := dot_S512x64_S64x64_S512x64_1_0_0_1_n_n

theorem wide_lhs0 (i : S512x64.Idx) (k : dotWide.contr.Idx) : (dotWide.lhsIdx i k 0).val = (i 0).val := by
  unfold DotDims.lhsIdx
  rw [dif_neg (show ¬(0 : Fin S512x4096.rank) ∈ dotWide.lhsBatch by decide), dif_pos (show (0 : Fin S512x4096.rank) ∈ dotWide.lhsNonContracting by decide)]
  rfl
theorem wide_rhs1 (i : S512x64.Idx) (k : dotWide.contr.Idx) : (dotWide.rhsIdx i k 1).val = (i 1).val := by
  unfold DotDims.rhsIdx
  rw [dif_neg (show ¬(1 : Fin S4096x64.rank) ∈ dotWide.rhsBatch by decide), dif_pos (show (1 : Fin S4096x64.rank) ∈ dotWide.rhsNonContracting by decide)]
  rfl
theorem narrow_lhs0 (i : S512x64.Idx) (k : dotNarrow.contr.Idx) : (dotNarrow.lhsIdx i k 0).val = (i 0).val := by
  unfold DotDims.lhsIdx
  rw [dif_neg (show ¬(0 : Fin S512x64.rank) ∈ dotNarrow.lhsBatch by decide), dif_pos (show (0 : Fin S512x64.rank) ∈ dotNarrow.lhsNonContracting by decide)]
  rfl
theorem narrow_rhs1 (i : S512x64.Idx) (k : dotNarrow.contr.Idx) : (dotNarrow.rhsIdx i k 1).val = (i 1).val := by
  unfold DotDims.rhsIdx
  rw [dif_neg (show ¬(1 : Fin S64x64.rank) ∈ dotNarrow.rhsBatch by decide), dif_pos (show (1 : Fin S64x64.rank) ∈ dotNarrow.rhsNonContracting by decide)]
  rfl

/-- The wide product into a zero accumulator at `(p, q)`: the sum over the 4096 contracted positions. -/
theorem matmul_wide_apply (l : FVec Ideal S512x4096 .bf16) (r : FVec Ideal S4096x64 .bf16) (p : Fin 512) (q : Fin 64) :
    matmul dotWide none l r (constant (F := Ideal) S512x64 .f32 0x00000000#32) (ix2 p q)
      = ∑ n : Fin 4096, l (ix2 p n) * r (ix2 n q) := by
  simp only [matmul]
  rw [Ideal.matmul_constant_zero_apply, ← Equiv.sum_comp (contrEquiv1 dotWide 4096 rfl rfl).symm]
  refine Finset.sum_congr rfl fun k _ => ?_
  have hk := contrEquiv1_symm_val dotWide 4096 rfl rfl k
  have el : dotWide.lhsIdx (ix2 p q) ((contrEquiv1 dotWide 4096 rfl rfl).symm k) = ix2 p k := funext fun a => Fin.ext (by
    match a with
    | ⟨0, _⟩ => exact wide_lhs0 _ _
    | ⟨1, _⟩ => exact (dotWide.lhsIdx_val_of_single rfl _ _).trans hk)
  have er : dotWide.rhsIdx (ix2 p q) ((contrEquiv1 dotWide 4096 rfl rfl).symm k) = ix2 k q := funext fun a => Fin.ext (by
    match a with
    | ⟨0, _⟩ => exact (dotWide.rhsIdx_val_of_single rfl _ _).trans hk
    | ⟨1, _⟩ => exact wide_rhs1 _ _)
  rw [el, er]

/-- The narrow product into a zero accumulator at `(p, q)`: the sum over the 64 contracted positions. -/
theorem matmul_narrow_apply (l : FVec Ideal S512x64 .bf16) (r : FVec Ideal S64x64 .bf16) (p : Fin 512) (q : Fin 64) :
    matmul dotNarrow none l r (constant (F := Ideal) S512x64 .f32 0x00000000#32) (ix2 p q)
      = ∑ j : Fin 64, l (ix2 p j) * r (ix2 j q) := by
  simp only [matmul]
  rw [Ideal.matmul_constant_zero_apply, ← Equiv.sum_comp (contrEquiv1 dotNarrow 64 rfl rfl).symm]
  refine Finset.sum_congr rfl fun k _ => ?_
  have hk := contrEquiv1_symm_val dotNarrow 64 rfl rfl k
  have el : dotNarrow.lhsIdx (ix2 p q) ((contrEquiv1 dotNarrow 64 rfl rfl).symm k) = ix2 p k := funext fun a => Fin.ext (by
    match a with
    | ⟨0, _⟩ => exact narrow_lhs0 _ _
    | ⟨1, _⟩ => exact (dotNarrow.lhsIdx_val_of_single rfl _ _).trans hk)
  have er : dotNarrow.rhsIdx (ix2 p q) ((contrEquiv1 dotNarrow 64 rfl rfl).symm k) = ix2 k q := funext fun a => Fin.ext (by
    match a with
    | ⟨0, _⟩ => exact (dotNarrow.rhsIdx_val_of_single rfl _ _).trans hk
    | ⟨1, _⟩ => exact narrow_rhs1 _ _)
  rw [el, er]

/-- A bias row broadcast over the tile reads its entry `q`. -/
theorem bias_apply (b : Vec Ideal S1x64 .f32) (p : Fin 512) (q : Fin 64) :
    broadcastTo S512x64 (shapeCast S1x64 b shapeCasts_S1x64_S1x64) broadcasts_S1x64_S512x64 (ix2 p q) = b (ix2 (0 : Fin 1) q) := by
  rw [shapeCast_self]
  exact broadcastTo_1b_ab_apply b broadcasts_S1x64_S512x64 p q

/-- A tile times a gate matrix, read at `(p, q)`: row `p` of the tile against column `q` of the matrix. -/
theorem gate_product_apply (x : FVec Ideal S512x64 .bf16) (w : Vec Ideal S64x64 .f32) (p : Fin 512) (q : Fin 64) :
    matmul dotNarrow none x (truncf .bf16 (shapeCast S64x64 w shapeCasts_S64x64_S64x64) bitsLt_bf16_f32)
        (constant (F := Ideal) S512x64 .f32 0x00000000#32) (ix2 p q)
      = ∑ j : Fin 64, x (ix2 p j) * w (ix2 j q) := by
  rw [matmul_narrow_apply, shapeCast_self]
  rfl

/-- The logistic and the hyperbolic tangent of a tile act entry by entry. -/
theorem logistic_apply {s : Shape} (x : FVec Ideal s .f32) (i : s.Idx) : logistic x i = Ideal.logistic (x i) := rfl
theorem tanh_apply {s : Shape} (x : FVec Ideal s .f32) (i : s.Idx) : tanh x i = Ideal.tanh (x i) := rfl

/-- Row `p` of the tile's aggregated messages: entry `j` weighs column `j` of the 4096 messages by adjacency row `p`. -/
def aggRow (a : Vec Ideal S1x512x4096 .f32) (mm : Vec Ideal S1x4096x64 .f32) (p : Fin 512) : Fin 64 → EReal := fun j =>
  aggregate (fun n => a (ix3 (0 : Fin 1) p n)) (fun n => mm (ix3 (0 : Fin 1) n j))

/-- The adjacency tile times the messages, positive part, at `(p, j)`. -/
theorem aggregated_apply (a : Vec Ideal S1x512x4096 .f32) (mm : Vec Ideal S1x4096x64 .f32) (p : Fin 512) (j : Fin 64) :
    k1_pay2 a mm (ix2 p j) = aggRow a mm p j := by
  unfold k1_pay2 aggRow aggregate relu
  show max (matmul dotWide none (truncf .bf16 (shapeCast S512x4096 a shapeCasts_S1x512x4096_S512x4096) bitsLt_bf16_f32) (truncf .bf16 (shapeCast S4096x64 mm shapeCasts_S1x4096x64_S4096x64) bitsLt_bf16_f32) (constant (F := Ideal) S512x64 .f32 0x00000000#32) (ix2 p j)) zeroWord = _
  rw [matmul_wide_apply]
  refine congrArg (fun x => max x zeroWord) (Finset.sum_congr rfl fun n _ => ?_)
  show shapeCast S512x4096 a shapeCasts_S1x512x4096_S512x4096 (ix2 p n) * shapeCast S4096x64 mm shapeCasts_S1x4096x64_S4096x64 (ix2 n j) = _
  rw [shapeCast_1ab_ab_apply, shapeCast_1ab_ab_apply]

/-- A gate pre-activation from the aggregated messages, with its bias, at `(p, q)` (the reset gate's). -/
theorem gate_in_apply (a : Vec Ideal S1x512x4096 .f32) (mm : Vec Ideal S1x4096x64 .f32) (w : Vec Ideal S64x64 .f32) (b : Vec Ideal S1x64 .f32)
    (p : Fin 512) (q : Fin 64) :
    k1_pay5 a mm w b (ix2 p q) = lin (aggRow a mm p) (fun j => w (ix2 j q)) (b (ix2 (0 : Fin 1) q)) := by
  unfold k1_pay5 lin
  show matmul dotNarrow none (k1_pay2 a mm) (truncf .bf16 (shapeCast S64x64 w shapeCasts_S64x64_S64x64) bitsLt_bf16_f32) (constant (F := Ideal) S512x64 .f32 0x00000000#32) (ix2 p q)
      + broadcastTo S512x64 (shapeCast S1x64 b shapeCasts_S1x64_S1x64) broadcasts_S1x64_S512x64 (ix2 p q) = _
  rw [gate_product_apply, bias_apply]
  exact congrArg (· + b (ix2 (0 : Fin 1) q)) (Finset.sum_congr rfl fun j _ => by rw [aggregated_apply])

/-- The same for the update gate. -/
theorem gate_in_apply' (a : Vec Ideal S1x512x4096 .f32) (mm : Vec Ideal S1x4096x64 .f32) (w : Vec Ideal S64x64 .f32) (b : Vec Ideal S1x64 .f32)
    (p : Fin 512) (q : Fin 64) :
    k1_pay6 a mm w b (ix2 p q) = lin (aggRow a mm p) (fun j => w (ix2 j q)) (b (ix2 (0 : Fin 1) q)) := by
  unfold k1_pay6 lin
  show matmul dotNarrow none (k1_pay2 a mm) (truncf .bf16 (shapeCast S64x64 w shapeCasts_S64x64_S64x64) bitsLt_bf16_f32) (constant (F := Ideal) S512x64 .f32 0x00000000#32) (ix2 p q)
      + broadcastTo S512x64 (shapeCast S1x64 b shapeCasts_S1x64_S1x64) broadcasts_S1x64_S512x64 (ix2 p q) = _
  rw [gate_product_apply, bias_apply]
  exact congrArg (· + b (ix2 (0 : Fin 1) q)) (Finset.sum_congr rfl fun j _ => by rw [aggregated_apply])

/-- The candidate's product with the aggregated messages, before its bias, at `(p, q)`. -/
theorem gate_in_nobias_apply (a : Vec Ideal S1x512x4096 .f32) (mm : Vec Ideal S1x4096x64 .f32) (w : Vec Ideal S64x64 .f32)
    (p : Fin 512) (q : Fin 64) :
    k1_pay7 a mm w (ix2 p q) = ∑ j : Fin 64, aggRow a mm p j * w (ix2 j q) := by
  unfold k1_pay7
  show matmul dotNarrow none (k1_pay2 a mm) (truncf .bf16 (shapeCast S64x64 w shapeCasts_S64x64_S64x64) bitsLt_bf16_f32) (constant (F := Ideal) S512x64 .f32 0x00000000#32) (ix2 p q) = _
  rw [gate_product_apply]
  exact Finset.sum_congr rfl fun j _ => by rw [aggregated_apply]

/-- The tile's old feature rows, as the body reads them. -/
theorem old_apply (hh : Vec Ideal S1x512x64 .f32) (p : Fin 512) (q : Fin 64) : k1_pay3 hh (ix2 p q) = hh (ix3 (0 : Fin 1) p q) := by
  unfold k1_pay3
  exact shapeCast_1ab_ab_apply hh shapeCasts_S1x512x64_S512x64 p q
theorem old_narrow_apply (hh : Vec Ideal S1x512x64 .f32) (p : Fin 512) (q : Fin 64) : k1_pay4 hh (ix2 p q) = hh (ix3 (0 : Fin 1) p q) := by
  unfold k1_pay4
  exact old_apply hh p q

/-- The gates and the mix at `(p, q)`, from the three gate inputs and the old rows. -/
theorem mix_apply (v11 : FVec Ideal S512x64 .f32) (v12 : FVec Ideal S512x64 .bf16) (v20 v28 v32 : FVec Ideal S512x64 .f32)
    (bic : Vec Ideal S1x64 .f32) (whr : Vec Ideal S64x64 .f32) (bhr : Vec Ideal S1x64 .f32) (whz : Vec Ideal S64x64 .f32) (bhz : Vec Ideal S1x64 .f32)
    (whc : Vec Ideal S64x64 .f32) (bhc : Vec Ideal S1x64 .f32) (p : Fin 512) (q : Fin 64) :
    k1_pay8 v11 v12 v20 v28 v32 bic whr bhr whz bhz whc bhc (ix2 p q)
      = gateMix (v20 (ix2 p q)) (v28 (ix2 p q)) (v32 (ix2 p q) + bic (ix2 (0 : Fin 1) q))
          (lin (fun j => v12 (ix2 p j)) (fun j => whr (ix2 j q)) (bhr (ix2 (0 : Fin 1) q)))
          (lin (fun j => v12 (ix2 p j)) (fun j => whz (ix2 j q)) (bhz (ix2 (0 : Fin 1) q)))
          (lin (fun j => v12 (ix2 p j)) (fun j => whc (ix2 j q)) (bhc (ix2 (0 : Fin 1) q)))
          (v11 (ix2 p q)) := by
  unfold k1_pay8 gateMix lin
  simp only [addf_apply, mulf_apply, subf_apply, logistic_apply, tanh_apply, broadcast_apply, gate_product_apply]
  rw [bias_apply bhz p q, bias_apply bic p q, bias_apply bhr p q, bias_apply bhc p q]
  rfl

/-- THE TILE: what the body stores at `(u, p, q)`, from its fifteen loaded blocks. -/
theorem tile_apply (a : Vec Ideal S1x512x4096 .f32) (mm : Vec Ideal S1x4096x64 .f32) (hh : Vec Ideal S1x512x64 .f32)
    (wir wiz wic : Vec Ideal S64x64 .f32) (bir biz bic : Vec Ideal S1x64 .f32)
    (whr whz whc : Vec Ideal S64x64 .f32) (bhr bhz bhc : Vec Ideal S1x64 .f32) (u : Fin 1) (p : Fin 512) (q : Fin 64) :
    k1_pay1 (k1_pay8 (k1_pay3 hh) (k1_pay4 hh) (k1_pay5 a mm wir bir) (k1_pay6 a mm wiz biz) (k1_pay7 a mm wic) bic whr bhr whz bhz whc bhc) (ix3 u p q)
      = gateMix (lin (aggRow a mm p) (fun j => wir (ix2 j q)) (bir (ix2 (0 : Fin 1) q)))
          (lin (aggRow a mm p) (fun j => wiz (ix2 j q)) (biz (ix2 (0 : Fin 1) q)))
          (lin (aggRow a mm p) (fun j => wic (ix2 j q)) (bic (ix2 (0 : Fin 1) q)))
          (lin (fun j => hh (ix3 (0 : Fin 1) p j)) (fun j => whr (ix2 j q)) (bhr (ix2 (0 : Fin 1) q)))
          (lin (fun j => hh (ix3 (0 : Fin 1) p j)) (fun j => whz (ix2 j q)) (bhz (ix2 (0 : Fin 1) q)))
          (lin (fun j => hh (ix3 (0 : Fin 1) p j)) (fun j => whc (ix2 j q)) (bhc (ix2 (0 : Fin 1) q)))
          (hh (ix3 (0 : Fin 1) p q)) := by
  unfold k1_pay1
  rw [shapeCast_ab_1ab_apply, mix_apply, gate_in_apply, gate_in_apply', gate_in_nobias_apply, old_apply]
  simp only [old_narrow_apply]
  rfl

end Cert.GruTile

end
-- ==== Proof.GruRegion.lean ====
/-
  The second region's output array after all 32 write-backs. Grid point `t = (b, r)` holds adjacency rows
  `512 r .. 512 r + 511` of batch `b`, all 4096 messages of batch `b`, the same 512 old feature rows, and the gate matrices
  and bias rows whole. What it writes back is therefore the block `(b, 512 r ..)` of ONE function of the arrays as the
  region finds them: entry `(b, n, k)` is the gate mix of six inner products over the aggregated row and the old row of
  node `(b, n)`. The 32 blocks tile the array, so the array ends holding that function.
-/
import proofs.«132970_j22282290331997_1_alg».proof.Proof.Gen.KernelIdeal.Frame
import proofs.«132970_j22282290331997_1_alg».proof.Proof.GruTile
import Idealize.ShloMosaic.Lib.Pipeline.Value

set_option maxRecDepth 16384

noncomputable section

namespace Cert.GruRegion

open Idealize.ShloMosaic Idealize.ShloMosaic.TcCoe Idealize.ShloMosaic.ValueIdx Idealize.SL.Sem
open Cert.KernelIdeal Cert.KernelIdeal.Gen Cert.GruStep Cert.GruTile

/-- What node `(b, n)` aggregates, column `j`, from the adjacency array and the array of messages. -/
def nodeAgg (a : S4x4096x4096.Idx → EReal) (mm : S4x4096x64.Idx → EReal) (b : Fin 4) (n : Fin 4096) : Fin 64 → EReal := fun j =>
  aggregate (fun n' => a (ix3 b n n')) (fun n' => mm (ix3 b n' j))

/-- The new state of node `(b, n)`, column `k`, from the fifteen arrays the region reads. -/
def updatedAt (a : S4x4096x4096.Idx → EReal) (mm hh : S4x4096x64.Idx → EReal)
    (wir wiz wic : S64x64.Idx → EReal) (bir biz bic : S1x64.Idx → EReal)
    (whr whz whc : S64x64.Idx → EReal) (bhr bhz bhc : S1x64.Idx → EReal) (b : Fin 4) (n : Fin 4096) (k : Fin 64) : EReal :=
  gateMix (lin (nodeAgg a mm b n) (fun j => wir (ix2 j k)) (bir (ix2 (0 : Fin 1) k)))
    (lin (nodeAgg a mm b n) (fun j => wiz (ix2 j k)) (biz (ix2 (0 : Fin 1) k)))
    (lin (nodeAgg a mm b n) (fun j => wic (ix2 j k)) (bic (ix2 (0 : Fin 1) k)))
    (lin (fun j => hh (ix3 b n j)) (fun j => whr (ix2 j k)) (bhr (ix2 (0 : Fin 1) k)))
    (lin (fun j => hh (ix3 b n j)) (fun j => whz (ix2 j k)) (bhz (ix2 (0 : Fin 1) k)))
    (lin (fun j => hh (ix3 b n j)) (fun j => whc (ix2 j k)) (bhc (ix2 (0 : Fin 1) k)))
    (hh (ix3 b n k))

/-- The whole output array as that function of the index. -/
def updated (a : S4x4096x4096.Idx → EReal) (mm hh : S4x4096x64.Idx → EReal)
    (wir wiz wic : S64x64.Idx → EReal) (bir biz bic : S1x64.Idx → EReal)
    (whr whz whc : S64x64.Idx → EReal) (bhr bhz bhc : S1x64.Idx → EReal) : S4x4096x64.Idx → EReal := fun i =>
  updatedAt a mm hh wir wiz wic bir biz bic whr whz whc bhr bhz bhc (i 0) (i 1) (i 2)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The index maps over the grid: the adjacency and feature windows move with the output window on the batch and row
    axes, the message window on the batch axis only, and the output's block indices stay in range. -/
theorem moving_facts : ∀ t : Fin cfg1.N,
    win1_0.index t (0 : Fin 3) = win1_15.index t (0 : Fin 3) ∧ win1_0.index t (1 : Fin 3) = win1_15.index t (1 : Fin 3) ∧ win1_0.index t (2 : Fin 3) = 0
    ∧ win1_1.index t (0 : Fin 3) = win1_15.index t (0 : Fin 3) ∧ win1_1.index t (1 : Fin 3) = 0 ∧ win1_1.index t (2 : Fin 3) = 0
    ∧ win1_2.index t (0 : Fin 3) = win1_15.index t (0 : Fin 3) ∧ win1_2.index t (1 : Fin 3) = win1_15.index t (1 : Fin 3) ∧ win1_2.index t (2 : Fin 3) = 0
    ∧ win1_15.index t (2 : Fin 3) = 0 ∧ win1_15.index t (0 : Fin 3) ≤ 3 ∧ win1_15.index t (1 : Fin 3) ≤ 7 :=
  (by decide +kernel : ∀ t : Fin grid1.N, _)

/-- The gate matrices' and bias rows' windows sit at block zero at every point. -/
theorem resting_facts : ∀ t : Fin cfg1.N,
    (∀ a : Fin 2, win1_3.index t a = 0)
    ∧ (∀ a : Fin 2, win1_4.index t a = 0)
    ∧ (∀ a : Fin 2, win1_5.index t a = 0)
    ∧ (∀ a : Fin 2, win1_6.index t a = 0)
    ∧ (∀ a : Fin 2, win1_7.index t a = 0)
    ∧ (∀ a : Fin 2, win1_8.index t a = 0)
    ∧ (∀ a : Fin 2, win1_9.index t a = 0)
    ∧ (∀ a : Fin 2, win1_10.index t a = 0)
    ∧ (∀ a : Fin 2, win1_11.index t a = 0)
    ∧ (∀ a : Fin 2, win1_12.index t a = 0)
    ∧ (∀ a : Fin 2, win1_13.index t a = 0)
    ∧ (∀ a : Fin 2, win1_14.index t a = 0) :=
  (by decide +kernel : ∀ t : Fin grid1.N, _)

/-- Every block position of the output array is some point's. -/
theorem onto_facts : ∀ (q0 : Fin 4) (q1 : Fin 8), ∃ t : Fin cfg1.N, win1_15.index t = ![q0.val, q1.val, 0] :=
  (by decide +kernel : ∀ (q0 : Fin 4) (q1 : Fin 8), ∃ t : Fin grid1.N, win1_15.index t = ![q0.val, q1.val, 0])

section Blocks
variable (V : (c : Dev nD) → (b : Ref sig .tc) → Buf (Elt Ideal) ((c : Thread nD τ).loc b)) (c : Dev nD) (t : Fin cfg1.N)

/-- Window 3's block at any point is its whole array. -/
theorem whole3 (z : S64x64.Idx) : iblk1 V c 3 t z = V c main_v23 z := by
  show V c main_v23 (((cfg1.win 3).blk t).view.emb z) = V c main_v23 z
  have h := (resting_facts t).1
  refine congrArg _ (funext fun a => Fin.ext ?_)
  match a with
  | ⟨0, _⟩ => show win1_3.index t (0 : Fin 2) * 64 + 1 * (z 0).val = (z 0).val; rw [h 0]; omega
  | ⟨1, _⟩ => show win1_3.index t (1 : Fin 2) * 64 + 1 * (z 1).val = (z 1).val; rw [h 1]; omega
/-- Window 4's block at any point is its whole array. -/
theorem whole4 (z : S64x64.Idx) : iblk1 V c 4 t z = V c main_v24 z := by
  show V c main_v24 (((cfg1.win 4).blk t).view.emb z) = V c main_v24 z
  have h := (resting_facts t).2.1
  refine congrArg _ (funext fun a => Fin.ext ?_)
  match a with
  | ⟨0, _⟩ => show win1_4.index t (0 : Fin 2) * 64 + 1 * (z 0).val = (z 0).val; rw [h 0]; omega
  | ⟨1, _⟩ => show win1_4.index t (1 : Fin 2) * 64 + 1 * (z 1).val = (z 1).val; rw [h 1]; omega
/-- Window 5's block at any point is its whole array. -/
theorem whole5 (z : S64x64.Idx) : iblk1 V c 5 t z = V c main_v25 z := by
  show V c main_v25 (((cfg1.win 5).blk t).view.emb z) = V c main_v25 z
  have h := (resting_facts t).2.2.1
  refine congrArg _ (funext fun a => Fin.ext ?_)
  match a with
  | ⟨0, _⟩ => show win1_5.index t (0 : Fin 2) * 64 + 1 * (z 0).val = (z 0).val; rw [h 0]; omega
  | ⟨1, _⟩ => show win1_5.index t (1 : Fin 2) * 64 + 1 * (z 1).val = (z 1).val; rw [h 1]; omega
/-- Window 6's block at any point is its whole array. -/
theorem whole6 (z : S1x64.Idx) : iblk1 V c 6 t z = V c main_v12 z := by
  show V c main_v12 (((cfg1.win 6).blk t).view.emb z) = V c main_v12 z
  have h := (resting_facts t).2.2.2.1
  refine congrArg _ (funext fun a => Fin.ext ?_)
  match a with
  | ⟨0, _⟩ => show win1_6.index t (0 : Fin 2) * 1 + 1 * (z 0).val = (z 0).val; rw [h 0]; omega
  | ⟨1, _⟩ => show win1_6.index t (1 : Fin 2) * 64 + 1 * (z 1).val = (z 1).val; rw [h 1]; omega
/-- Window 7's block at any point is its whole array. -/
theorem whole7 (z : S1x64.Idx) : iblk1 V c 7 t z = V c main_v14 z := by
  show V c main_v14 (((cfg1.win 7).blk t).view.emb z) = V c main_v14 z
  have h := (resting_facts t).2.2.2.2.1
  refine congrArg _ (funext fun a => Fin.ext ?_)
  match a with
  | ⟨0, _⟩ => show win1_7.index t (0 : Fin 2) * 1 + 1 * (z 0).val = (z 0).val; rw [h 0]; omega
  | ⟨1, _⟩ => show win1_7.index t (1 : Fin 2) * 64 + 1 * (z 1).val = (z 1).val; rw [h 1]; omega
/-- Window 8's block at any point is its whole array. -/
theorem whole8 (z : S1x64.Idx) : iblk1 V c 8 t z = V c main_v16 z := by
  show V c main_v16 (((cfg1.win 8).blk t).view.emb z) = V c main_v16 z
  have h := (resting_facts t).2.2.2.2.2.1
  refine congrArg _ (funext fun a => Fin.ext ?_)
  match a with
  | ⟨0, _⟩ => show win1_8.index t (0 : Fin 2) * 1 + 1 * (z 0).val = (z 0).val; rw [h 0]; omega
  | ⟨1, _⟩ => show win1_8.index t (1 : Fin 2) * 64 + 1 * (z 1).val = (z 1).val; rw [h 1]; omega
/-- Window 9's block at any point is its whole array. -/
theorem whole9 (z : S64x64.Idx) : iblk1 V c 9 t z = V c main_v26 z := by
  show V c main_v26 (((cfg1.win 9).blk t).view.emb z) = V c main_v26 z
  have h := (resting_facts t).2.2.2.2.2.2.1
  refine congrArg _ (funext fun a => Fin.ext ?_)
  match a with
  | ⟨0, _⟩ => show win1_9.index t (0 : Fin 2) * 64 + 1 * (z 0).val = (z 0).val; rw [h 0]; omega
  | ⟨1, _⟩ => show win1_9.index t (1 : Fin 2) * 64 + 1 * (z 1).val = (z 1).val; rw [h 1]; omega
/-- Window 10's block at any point is its whole array. -/
theorem whole10 (z : S64x64.Idx) : iblk1 V c 10 t z = V c main_v27 z := by
  show V c main_v27 (((cfg1.win 10).blk t).view.emb z) = V c main_v27 z
  have h := (resting_facts t).2.2.2.2.2.2.2.1
  refine congrArg _ (funext fun a => Fin.ext ?_)
  match a with
  | ⟨0, _⟩ => show win1_10.index t (0 : Fin 2) * 64 + 1 * (z 0).val = (z 0).val; rw [h 0]; omega
  | ⟨1, _⟩ => show win1_10.index t (1 : Fin 2) * 64 + 1 * (z 1).val = (z 1).val; rw [h 1]; omega
/-- Window 11's block at any point is its whole array. -/
theorem whole11 (z : S64x64.Idx) : iblk1 V c 11 t z = V c main_v28 z := by
  show V c main_v28 (((cfg1.win 11).blk t).view.emb z) = V c main_v28 z
  have h := (resting_facts t).2.2.2.2.2.2.2.2.1
  refine congrArg _ (funext fun a => Fin.ext ?_)
  match a with
  | ⟨0, _⟩ => show win1_11.index t (0 : Fin 2) * 64 + 1 * (z 0).val = (z 0).val; rw [h 0]; omega
  | ⟨1, _⟩ => show win1_11.index t (1 : Fin 2) * 64 + 1 * (z 1).val = (z 1).val; rw [h 1]; omega
/-- Window 12's block at any point is its whole array. -/
theorem whole12 (z : S1x64.Idx) : iblk1 V c 12 t z = V c main_v18 z := by
  show V c main_v18 (((cfg1.win 12).blk t).view.emb z) = V c main_v18 z
  have h := (resting_facts t).2.2.2.2.2.2.2.2.2.1
  refine congrArg _ (funext fun a => Fin.ext ?_)
  match a with
  | ⟨0, _⟩ => show win1_12.index t (0 : Fin 2) * 1 + 1 * (z 0).val = (z 0).val; rw [h 0]; omega
  | ⟨1, _⟩ => show win1_12.index t (1 : Fin 2) * 64 + 1 * (z 1).val = (z 1).val; rw [h 1]; omega
/-- Window 13's block at any point is its whole array. -/
theorem whole13 (z : S1x64.Idx) : iblk1 V c 13 t z = V c main_v20 z := by
  show V c main_v20 (((cfg1.win 13).blk t).view.emb z) = V c main_v20 z
  have h := (resting_facts t).2.2.2.2.2.2.2.2.2.2.1
  refine congrArg _ (funext fun a => Fin.ext ?_)
  match a with
  | ⟨0, _⟩ => show win1_13.index t (0 : Fin 2) * 1 + 1 * (z 0).val = (z 0).val; rw [h 0]; omega
  | ⟨1, _⟩ => show win1_13.index t (1 : Fin 2) * 64 + 1 * (z 1).val = (z 1).val; rw [h 1]; omega
/-- Window 14's block at any point is its whole array. -/
theorem whole14 (z : S1x64.Idx) : iblk1 V c 14 t z = V c main_v22 z := by
  show V c main_v22 (((cfg1.win 14).blk t).view.emb z) = V c main_v22 z
  have h := (resting_facts t).2.2.2.2.2.2.2.2.2.2.2
  refine congrArg _ (funext fun a => Fin.ext ?_)
  match a with
  | ⟨0, _⟩ => show win1_14.index t (0 : Fin 2) * 1 + 1 * (z 0).val = (z 0).val; rw [h 0]; omega
  | ⟨1, _⟩ => show win1_14.index t (1 : Fin 2) * 64 + 1 * (z 1).val = (z 1).val; rw [h 1]; omega

/-- WHAT POINT `t` WRITES BACK is block `t` of `updated` of the arrays as the region finds them. -/
theorem flushed_eq :
    (dat1 (F := Ideal) V c).flushed 15 t = ((cfg1.win 15).blk t).view.read (Elt Ideal)
      (updated (V c main_arg1) (V c main_v4) (V c main_arg0) (V c main_v23) (V c main_v24) (V c main_v25) (V c main_v12) (V c main_v14) (V c main_v16)
        (V c main_v26) (V c main_v27) (V c main_v28) (V c main_v18) (V c main_v20) (V c main_v22)) := by
  show (cfg1.win 15).cut (grid1.coords t) ((dat1 V c).after 15 t) = _
  rw [after1_15]
  unfold out1_15
  rw [View.canon_unit_zero zeros3]
  simp only [View.ld_unit_zero (S := S1x512x4096) zeros3, View.ld_unit_zero (S := S1x4096x64) zeros3, View.ld_unit_zero (S := S1x512x64) zeros3,
    View.ld_unit_zero (S := S64x64) zeros2, View.ld_unit_zero (S := S1x64) zeros2]
  funext y
  obtain ⟨u, p, q, rfl⟩ : ∃ (u : Fin 1) (p : Fin 512) (q : Fin 64), y = ix3 u p q := ⟨y 0, y 1, y 2, eq_ix3 y⟩
  obtain ⟨e00, e01, e02, e10, e11, e12, e20, e21, e22, e152, hb0, hb1⟩ := moving_facts t
  have hu : u.val = 0 := by have := u.isLt; omega
  have hp : p.val < 512 := p.isLt
  obtain ⟨B, hB⟩ : ∃ B : Fin 4, B.val = win1_15.index t (0 : Fin 3) := ⟨⟨win1_15.index t (0 : Fin 3), by omega⟩, rfl⟩
  obtain ⟨N, hN⟩ : ∃ N : Fin 4096, N.val = win1_15.index t (1 : Fin 3) * 512 + p.val := ⟨⟨win1_15.index t (1 : Fin 3) * 512 + p.val, by omega⟩, rfl⟩
  have hemb : (((cfg1.win 15).blk t).view.emb (ix3 u p q) : S4x4096x64.Idx) = ix3 B N q := funext fun a => Fin.ext (by
    match a with
    | ⟨0, _⟩ => show win1_15.index t (0 : Fin 3) * 1 + 1 * u.val = B.val; omega
    | ⟨1, _⟩ => show win1_15.index t (1 : Fin 3) * 512 + 1 * p.val = N.val; omega
    | ⟨2, _⟩ => show win1_15.index t (2 : Fin 3) * 64 + 1 * q.val = q.val; omega)
  have hA : ∀ n : Fin 4096, iblk1 V c 0 t (ix3 (0 : Fin 1) p n) = V c main_arg1 (ix3 B N n) := fun n => by
    show V c main_arg1 (((cfg1.win 0).blk t).view.emb (ix3 (0 : Fin 1) p n)) = V c main_arg1 (ix3 B N n)
    refine congrArg _ (funext fun a => Fin.ext ?_)
    match a with
    | ⟨0, _⟩ => show win1_0.index t (0 : Fin 3) * 1 + 1 * 0 = B.val; omega
    | ⟨1, _⟩ => show win1_0.index t (1 : Fin 3) * 512 + 1 * p.val = N.val; omega
    | ⟨2, _⟩ => show win1_0.index t (2 : Fin 3) * 4096 + 1 * n.val = n.val; omega
  have hM : ∀ (n : Fin 4096) (j : Fin 64), iblk1 V c 1 t (ix3 (0 : Fin 1) n j) = V c main_v4 (ix3 B n j) := fun n j => by
    show V c main_v4 (((cfg1.win 1).blk t).view.emb (ix3 (0 : Fin 1) n j)) = V c main_v4 (ix3 B n j)
    refine congrArg _ (funext fun a => Fin.ext ?_)
    match a with
    | ⟨0, _⟩ => show win1_1.index t (0 : Fin 3) * 1 + 1 * 0 = B.val; omega
    | ⟨1, _⟩ => show win1_1.index t (1 : Fin 3) * 4096 + 1 * n.val = n.val; omega
    | ⟨2, _⟩ => show win1_1.index t (2 : Fin 3) * 64 + 1 * j.val = j.val; omega
  have hH : ∀ j : Fin 64, iblk1 V c 2 t (ix3 (0 : Fin 1) p j) = V c main_arg0 (ix3 B N j) := fun j => by
    show V c main_arg0 (((cfg1.win 2).blk t).view.emb (ix3 (0 : Fin 1) p j)) = V c main_arg0 (ix3 B N j)
    refine congrArg _ (funext fun a => Fin.ext ?_)
    match a with
    | ⟨0, _⟩ => show win1_2.index t (0 : Fin 3) * 1 + 1 * 0 = B.val; omega
    | ⟨1, _⟩ => show win1_2.index t (1 : Fin 3) * 512 + 1 * p.val = N.val; omega
    | ⟨2, _⟩ => show win1_2.index t (2 : Fin 3) * 64 + 1 * j.val = j.val; omega
  have hagg : aggRow (iblk1 V c 0 t) (iblk1 V c 1 t) p = nodeAgg (V c main_arg1) (V c main_v4) B N := funext fun j => by
    unfold aggRow nodeAgg
    simp only [hA, hM]
  show k1_pay1 (k1_pay8 (k1_pay3 (iblk1 V c 2 t)) (k1_pay4 (iblk1 V c 2 t)) (k1_pay5 (iblk1 V c 0 t) (iblk1 V c 1 t) (iblk1 V c 3 t) (iblk1 V c 6 t))
      (k1_pay6 (iblk1 V c 0 t) (iblk1 V c 1 t) (iblk1 V c 4 t) (iblk1 V c 7 t)) (k1_pay7 (iblk1 V c 0 t) (iblk1 V c 1 t) (iblk1 V c 5 t))
      (iblk1 V c 8 t) (iblk1 V c 9 t) (iblk1 V c 12 t) (iblk1 V c 10 t) (iblk1 V c 13 t) (iblk1 V c 11 t) (iblk1 V c 14 t)) (ix3 u p q)
    = updated (V c main_arg1) (V c main_v4) (V c main_arg0) (V c main_v23) (V c main_v24) (V c main_v25) (V c main_v12) (V c main_v14) (V c main_v16)
        (V c main_v26) (V c main_v27) (V c main_v28) (V c main_v18) (V c main_v20) (V c main_v22) (((cfg1.win 15).blk t).view.emb (ix3 u p q))
  refine (tile_apply (iblk1 V c 0 t) (iblk1 V c 1 t) (iblk1 V c 2 t) (iblk1 V c 3 t) (iblk1 V c 4 t) (iblk1 V c 5 t) (iblk1 V c 6 t) (iblk1 V c 7 t)
    (iblk1 V c 8 t) (iblk1 V c 9 t) (iblk1 V c 10 t) (iblk1 V c 11 t) (iblk1 V c 12 t) (iblk1 V c 13 t) (iblk1 V c 14 t) u p q).trans ?_
  rw [hemb, hagg]
  show _ = updatedAt (V c main_arg1) (V c main_v4) (V c main_arg0) (V c main_v23) (V c main_v24) (V c main_v25) (V c main_v12) (V c main_v14) (V c main_v16)
        (V c main_v26) (V c main_v27) (V c main_v28) (V c main_v18) (V c main_v20) (V c main_v22) B N q
  unfold updatedAt
  simp only [hH, whole3 V c t, whole4 V c t, whole5 V c t, whole6 V c t, whole7 V c t, whole8 V c t, whole9 V c t, whole10 V c t, whole11 V c t, whole12 V c t, whole13 V c t, whole14 V c t]

/-- An index of the array is in point `t`'s block iff each coordinate is in the block's range on its axis. -/
theorem mem_blk (i : S4x4096x64.Idx) :
    i ∈ ((cfg1.win 15).blk t).view.set ↔ ∀ a : Fin 3, win1_15.index t a * S1x512x64.size a ≤ (i a).val ∧ (i a).val < win1_15.index t a * S1x512x64.size a + S1x512x64.size a := by
  show i ∈ ((View.whole main_v29).slice (win1_15.rect t)).set ↔ _
  rw [View.set_slice_whole, Rect.mem_set_unit]
  exact Iff.rfl

end Blocks

/-- Every entry of the array is in some point's block: node `(b, n)` is in the block of point `(b, n / 512)`. -/
theorem covered (i : S4x4096x64.Idx) : ∃ t : Fin cfg1.N, (cfg1.win 15).flush t = true ∧ i ∈ ((cfg1.win 15).blk t).view.set := by
  have hi0 : (i 0).val < 4 := (i 0).isLt
  have hi1 : (i 1).val < 4096 := (i 1).isLt
  have hi2 : (i 2).val < 64 := (i 2).isLt
  obtain ⟨t, ht⟩ := onto_facts ⟨(i 0).val, hi0⟩ ⟨(i 1).val / 512, by omega⟩
  have q0 : win1_15.index t (0 : Fin 3) = (i 0).val := congrFun ht 0
  have q1 : win1_15.index t (1 : Fin 3) = (i 1).val / 512 := congrFun ht 1
  have q2 : win1_15.index t (2 : Fin 3) = 0 := congrFun ht 2
  refine ⟨t, flush1_15 t, ?_⟩
  rw [mem_blk]
  intro a
  match a with
  | ⟨0, _⟩ => show win1_15.index t (0 : Fin 3) * 1 ≤ (i 0).val ∧ (i 0).val < win1_15.index t (0 : Fin 3) * 1 + 1; omega
  | ⟨1, _⟩ => show win1_15.index t (1 : Fin 3) * 512 ≤ (i 1).val ∧ (i 1).val < win1_15.index t (1 : Fin 3) * 512 + 512; omega
  | ⟨2, _⟩ => show win1_15.index t (2 : Fin 3) * 64 ≤ (i 2).val ∧ (i 2).val < win1_15.index t (2 : Fin 3) * 64 + 64; omega

/-- THE ARRAY after the region: `updated` of the arrays as the region finds them. -/
theorem array_eq (V : (c : Dev nD) → (b : Ref sig .tc) → Buf (Elt Ideal) ((c : Thread nD τ).loc b)) (c : Dev nD) :
    (dat1 (F := Ideal) V c).arrAt 15 cfg1.N
      = updated (V c main_arg1) (V c main_v4) (V c main_arg0) (V c main_v23) (V c main_v24) (V c main_v25) (V c main_v12) (V c main_v14) (V c main_v16)
          (V c main_v26) (V c main_v27) (V c main_v28) (V c main_v18) (V c main_v20) (V c main_v22) :=
  (dat1 (F := Ideal) V c).arrAt_eq_of_cover 15 _ (fun t _ => flushed_eq V c t) covered

end Cert.GruRegion

end
-- ==== Proof.HostGlue.lean ====
import proofs.«132970_j22282290331997_1_alg».proof.Proof.Gen.KernelIdeal.Frame
import proofs.«132970_j22282290331997_1_alg».proof.Proof.GruStep
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.HostGlue

open Idealize.ShloMosaic Idealize.ShloMosaic.TcCoe Idealize.ShloMosaic.ValueIdx Idealize.SL.Sem
open Cert.KernelIdeal Cert.KernelIdeal.Gen Cert.GruStep

variable (m : (ℓ : Loc nD τ sig) → Buf (Elt Ideal) ℓ) (ρ : Dev nD → PrngReg) (c : Dev nD)

/-- The flat row of node `(b, n)`. -/
abbrev flatRow (b : Fin 4) (n : Fin 4096) : Fin 16384 := ⟨b.val * 4096 + n.val, by have := b.isLt; have := n.isLt; omega⟩

/-! ## What the first region finds

A reshape keeps the row-major position: node `(b, n)` of the `[4, 4096, 64]` array is flat row `b * 4096 + n` of the
`[16384, 64]` one; entry `j` of a vector of 64 is entry `(0, j)` of its `[1, 64]` reshape. A buffer no operation
writes holds what it held at launch. -/

theorem entry0_rows (b : Fin 4) (n : Fin 4096) (j : Fin 64) :
    V1 m ρ c main_v0 (ix2 (flatRow b n) j) = (m ((c : Thread nD τ).loc main_arg0)) (ix3 b n j) := by
  have e : (V1 m ρ c main_v0 : S16384x64.Idx → EReal)
      = shapeCast S16384x64 (m ((c : Thread nD τ).loc main_arg0)) shapeCasts_S4x4096x64_S16384x64 := by
    show StableHlo.after hostOps0 (W0 m ρ c) (Proc.devRef .tc main_v0) = _
    after_results
    rfl
  refine (congrFun e _).trans ?_
  exact shapeCast_apply _ _ _ _ (by
    show ((⟨3, ![4, 4096, 64]⟩ : Shape).rowMajor (ix3 b n j)).val = ((⟨2, ![16384, 64]⟩ : Shape).rowMajor (ix2 (flatRow b n) j)).val
    rw [Shape.rowMajor_val_three, Shape.rowMajor_val_two]
    rfl)
theorem entry0_W1 : V1 m ρ c main_arg2 = (m ((c : Thread nD τ).loc main_arg2)) := by
  show StableHlo.after hostOps0 (W0 m ρ c) (Proc.devRef .tc main_arg2) = _
  after_results
theorem entry0_b1 (j : Fin 64) : V1 m ρ c main_v1 (ix2 (0 : Fin 1) j) = (m ((c : Thread nD τ).loc main_arg3)) (ix1 j) := by
  have e : (V1 m ρ c main_v1 : S1x64.Idx → EReal)
      = shapeCast S1x64 (m ((c : Thread nD τ).loc main_arg3)) shapeCasts_S64_S1x64 := by
    show StableHlo.after hostOps0 (W0 m ρ c) (Proc.devRef .tc main_v1) = _
    after_results
    rfl
  refine (congrFun e _).trans ?_
  exact shapeCast_a_1a_apply _ _ _ _
theorem entry0_W2 : V1 m ρ c main_arg4 = (m ((c : Thread nD τ).loc main_arg4)) := by
  show StableHlo.after hostOps0 (W0 m ρ c) (Proc.devRef .tc main_arg4) = _
  after_results
theorem entry0_b2 (j : Fin 64) : V1 m ρ c main_v2 (ix2 (0 : Fin 1) j) = (m ((c : Thread nD τ).loc main_arg5)) (ix1 j) := by
  have e : (V1 m ρ c main_v2 : S1x64.Idx → EReal)
      = shapeCast S1x64 (m ((c : Thread nD τ).loc main_arg5)) shapeCasts_S64_S1x64 := by
    show StableHlo.after hostOps0 (W0 m ρ c) (Proc.devRef .tc main_v2) = _
    after_results
    rfl
  refine (congrFun e _).trans ?_
  exact shapeCast_a_1a_apply _ _ _ _

/-! ## What the second region finds

The arguments the second stretch of host operations reads are written by no host operation and by no window of the
first region, so they are as launched. The transpose of the row-slice at offset `o` of a `[192, 64]` matrix reads, at
`(j, q)`, the matrix at `(o + q, j)`; the `[1, 64]` reshape of the slice at offset `o` of a vector of 192 reads, at
`(0, q)`, the vector at `o + q`. The offsets 0, 64 and 128 are the reset, update and candidate blocks. -/

theorem W2_arg0 : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  after_results
theorem W2_arg1 : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results
theorem W2_arg6 : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results
theorem W2_arg7 : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results
theorem W2_arg8 : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results
theorem W2_arg9 : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results

theorem entry1_A : V3 m ρ c main_arg1 = (m ((c : Thread nD τ).loc main_arg1)) := by
  show StableHlo.after hostOps1 (W2 m ρ c) (Proc.devRef .tc main_arg1) = _
  after_results
  exact W2_arg1 m ρ c
theorem entry1_h : V3 m ρ c main_arg0 = (m ((c : Thread nD τ).loc main_arg0)) := by
  show StableHlo.after hostOps1 (W2 m ρ c) (Proc.devRef .tc main_arg0) = _
  after_results
  exact W2_arg0 m ρ c

theorem entry1_messages (b : Fin 4) (n : Fin 4096) (k : Fin 64) :
    V3 m ρ c main_v4 (ix3 b n k) = V2 m ρ c main_v3 (ix2 (flatRow b n) k) := by
  have e : (V3 m ρ c main_v4 : S4x4096x64.Idx → EReal)
      = shapeCast S4x4096x64 (V2 m ρ c main_v3) shapeCasts_S16384x64_S4x4096x64 := by
    show StableHlo.after hostOps1 (W2 m ρ c) (Proc.devRef .tc main_v4) = _
    after_results
    rfl
  refine (congrFun e _).trans ?_
  exact shapeCast_apply _ _ _ _ (by
    show ((⟨2, ![16384, 64]⟩ : Shape).rowMajor (ix2 (flatRow b n) k)).val = ((⟨3, ![4, 4096, 64]⟩ : Shape).rowMajor (ix3 b n k)).val
    rw [Shape.rowMajor_val_three, Shape.rowMajor_val_two]
    rfl)
theorem entry1_wir (j q : Fin 64) : V3 m ρ c main_v23 (ix2 j q) = (m ((c : Thread nD τ).loc main_arg6)) (ix2 (rowR q) j) := by
  have e : (V3 m ρ c main_v23 : S64x64.Idx → EReal)
      = transpose S64x64 [1, 0] (extractStridedSlice S64x64 ![0, 0] (m ((c : Thread nD τ).loc main_arg6)) slices_S192x64_S64x64_0_0)
          transposes_S64x64_S64x64_1_0 := by
    show StableHlo.after hostOps1 (W2 m ρ c) (Proc.devRef .tc main_v23) = _
    after_results
    rw [W2_arg6]
  refine (congrFun e _).trans ?_
  refine (transpose_ix2_apply _ _ j q).trans ?_
  exact slice2_axis0_apply 0 _ _ q j (rowR q) (Nat.zero_add _).symm
theorem entry1_wiz (j q : Fin 64) : V3 m ρ c main_v24 (ix2 j q) = (m ((c : Thread nD τ).loc main_arg6)) (ix2 (rowZ q) j) := by
  have e : (V3 m ρ c main_v24 : S64x64.Idx → EReal)
      = transpose S64x64 [1, 0] (extractStridedSlice S64x64 ![64, 0] (m ((c : Thread nD τ).loc main_arg6)) slices_S192x64_S64x64_64_0)
          transposes_S64x64_S64x64_1_0 := by
    show StableHlo.after hostOps1 (W2 m ρ c) (Proc.devRef .tc main_v24) = _
    after_results
    rw [W2_arg6]
  refine (congrFun e _).trans ?_
  refine (transpose_ix2_apply _ _ j q).trans ?_
  exact slice2_axis0_apply 64 _ _ q j (rowZ q) rfl
theorem entry1_wic (j q : Fin 64) : V3 m ρ c main_v25 (ix2 j q) = (m ((c : Thread nD τ).loc main_arg6)) (ix2 (rowC q) j) := by
  have e : (V3 m ρ c main_v25 : S64x64.Idx → EReal)
      = transpose S64x64 [1, 0] (extractStridedSlice S64x64 ![128, 0] (m ((c : Thread nD τ).loc main_arg6)) slices_S192x64_S64x64_128_0)
          transposes_S64x64_S64x64_1_0 := by
    show StableHlo.after hostOps1 (W2 m ρ c) (Proc.devRef .tc main_v25) = _
    after_results
    rw [W2_arg6]
  refine (congrFun e _).trans ?_
  refine (transpose_ix2_apply _ _ j q).trans ?_
  exact slice2_axis0_apply 128 _ _ q j (rowC q) rfl
theorem entry1_whr (j q : Fin 64) : V3 m ρ c main_v26 (ix2 j q) = (m ((c : Thread nD τ).loc main_arg8)) (ix2 (rowR q) j) := by
  have e : (V3 m ρ c main_v26 : S64x64.Idx → EReal)
      = transpose S64x64 [1, 0] (extractStridedSlice S64x64 ![0, 0] (m ((c : Thread nD τ).loc main_arg8)) slices_S192x64_S64x64_0_0)
          transposes_S64x64_S64x64_1_0 := by
    show StableHlo.after hostOps1 (W2 m ρ c) (Proc.devRef .tc main_v26) = _
    after_results
    rw [W2_arg8]
  refine (congrFun e _).trans ?_
  refine (transpose_ix2_apply _ _ j q).trans ?_
  exact slice2_axis0_apply 0 _ _ q j (rowR q) (Nat.zero_add _).symm
theorem entry1_whz (j q : Fin 64) : V3 m ρ c main_v27 (ix2 j q) = (m ((c : Thread nD τ).loc main_arg8)) (ix2 (rowZ q) j) := by
  have e : (V3 m ρ c main_v27 : S64x64.Idx → EReal)
      = transpose S64x64 [1, 0] (extractStridedSlice S64x64 ![64, 0] (m ((c : Thread nD τ).loc main_arg8)) slices_S192x64_S64x64_64_0)
          transposes_S64x64_S64x64_1_0 := by
    show StableHlo.after hostOps1 (W2 m ρ c) (Proc.devRef .tc main_v27) = _
    after_results
    rw [W2_arg8]
  refine (congrFun e _).trans ?_
  refine (transpose_ix2_apply _ _ j q).trans ?_
  exact slice2_axis0_apply 64 _ _ q j (rowZ q) rfl
theorem entry1_whc (j q : Fin 64) : V3 m ρ c main_v28 (ix2 j q) = (m ((c : Thread nD τ).loc main_arg8)) (ix2 (rowC q) j) := by
  have e : (V3 m ρ c main_v28 : S64x64.Idx → EReal)
      = transpose S64x64 [1, 0] (extractStridedSlice S64x64 ![128, 0] (m ((c : Thread nD τ).loc main_arg8)) slices_S192x64_S64x64_128_0)
          transposes_S64x64_S64x64_1_0 := by
    show StableHlo.after hostOps1 (W2 m ρ c) (Proc.devRef .tc main_v28) = _
    after_results
    rw [W2_arg8]
  refine (congrFun e _).trans ?_
  refine (transpose_ix2_apply _ _ j q).trans ?_
  exact slice2_axis0_apply 128 _ _ q j (rowC q) rfl
theorem entry1_bir (q : Fin 64) : V3 m ρ c main_v12 (ix2 (0 : Fin 1) q) = (m ((c : Thread nD τ).loc main_arg7)) (ix1 (rowR q)) := by
  have e : (V3 m ρ c main_v12 : S1x64.Idx → EReal)
      = shapeCast S1x64 (extractStridedSlice S64 ![0] (m ((c : Thread nD τ).loc main_arg7)) slices_S192_S64_0) shapeCasts_S64_S1x64 := by
    show StableHlo.after hostOps1 (W2 m ρ c) (Proc.devRef .tc main_v12) = _
    after_results
    rw [W2_arg7]
    rfl
  refine (congrFun e _).trans ?_
  refine (shapeCast_a_1a_apply _ _ _ _).trans ?_
  exact extractStridedSlice_apply _ _ _ _ (ix1 (rowR q)) (fun a => by
    match a with
    | ⟨0, _⟩ => exact (Nat.zero_add _).symm)
theorem entry1_biz (q : Fin 64) : V3 m ρ c main_v14 (ix2 (0 : Fin 1) q) = (m ((c : Thread nD τ).loc main_arg7)) (ix1 (rowZ q)) := by
  have e : (V3 m ρ c main_v14 : S1x64.Idx → EReal)
      = shapeCast S1x64 (extractStridedSlice S64 ![64] (m ((c : Thread nD τ).loc main_arg7)) slices_S192_S64_64) shapeCasts_S64_S1x64 := by
    show StableHlo.after hostOps1 (W2 m ρ c) (Proc.devRef .tc main_v14) = _
    after_results
    rw [W2_arg7]
    rfl
  refine (congrFun e _).trans ?_
  refine (shapeCast_a_1a_apply _ _ _ _).trans ?_
  exact extractStridedSlice_apply _ _ _ _ (ix1 (rowZ q)) (fun a => by
    match a with
    | ⟨0, _⟩ => exact rfl)
theorem entry1_bic (q : Fin 64) : V3 m ρ c main_v16 (ix2 (0 : Fin 1) q) = (m ((c : Thread nD τ).loc main_arg7)) (ix1 (rowC q)) := by
  have e : (V3 m ρ c main_v16 : S1x64.Idx → EReal)
      = shapeCast S1x64 (extractStridedSlice S64 ![128] (m ((c : Thread nD τ).loc main_arg7)) slices_S192_S64_128) shapeCasts_S64_S1x64 := by
    show StableHlo.after hostOps1 (W2 m ρ c) (Proc.devRef .tc main_v16) = _
    after_results
    rw [W2_arg7]
    rfl
  refine (congrFun e _).trans ?_
  refine (shapeCast_a_1a_apply _ _ _ _).trans ?_
  exact extractStridedSlice_apply _ _ _ _ (ix1 (rowC q)) (fun a => by
    match a with
    | ⟨0, _⟩ => exact rfl)
theorem entry1_bhr (q : Fin 64) : V3 m ρ c main_v18 (ix2 (0 : Fin 1) q) = (m ((c : Thread nD τ).loc main_arg9)) (ix1 (rowR q)) := by
  have e : (V3 m ρ c main_v18 : S1x64.Idx → EReal)
      = shapeCast S1x64 (extractStridedSlice S64 ![0] (m ((c : Thread nD τ).loc main_arg9)) slices_S192_S64_0) shapeCasts_S64_S1x64 := by
    show StableHlo.after hostOps1 (W2 m ρ c) (Proc.devRef .tc main_v18) = _
    after_results
    rw [W2_arg9]
    rfl
  refine (congrFun e _).trans ?_
  refine (shapeCast_a_1a_apply _ _ _ _).trans ?_
  exact extractStridedSlice_apply _ _ _ _ (ix1 (rowR q)) (fun a => by
    match a with
    | ⟨0, _⟩ => exact (Nat.zero_add _).symm)
theorem entry1_bhz (q : Fin 64) : V3 m ρ c main_v20 (ix2 (0 : Fin 1) q) = (m ((c : Thread nD τ).loc main_arg9)) (ix1 (rowZ q)) := by
  have e : (V3 m ρ c main_v20 : S1x64.Idx → EReal)
      = shapeCast S1x64 (extractStridedSlice S64 ![64] (m ((c : Thread nD τ).loc main_arg9)) slices_S192_S64_64) shapeCasts_S64_S1x64 := by
    show StableHlo.after hostOps1 (W2 m ρ c) (Proc.devRef .tc main_v20) = _
    after_results
    rw [W2_arg9]
    rfl
  refine (congrFun e _).trans ?_
  refine (shapeCast_a_1a_apply _ _ _ _).trans ?_
  exact extractStridedSlice_apply _ _ _ _ (ix1 (rowZ q)) (fun a => by
    match a with
    | ⟨0, _⟩ => exact rfl)
theorem entry1_bhc (q : Fin 64) : V3 m ρ c main_v22 (ix2 (0 : Fin 1) q) = (m ((c : Thread nD τ).loc main_arg9)) (ix1 (rowC q)) := by
  have e : (V3 m ρ c main_v22 : S1x64.Idx → EReal)
      = shapeCast S1x64 (extractStridedSlice S64 ![128] (m ((c : Thread nD τ).loc main_arg9)) slices_S192_S64_128) shapeCasts_S64_S1x64 := by
    show StableHlo.after hostOps1 (W2 m ρ c) (Proc.devRef .tc main_v22) = _
    after_results
    rw [W2_arg9]
    rfl
  refine (congrFun e _).trans ?_
  refine (shapeCast_a_1a_apply _ _ _ _).trans ?_
  exact extractStridedSlice_apply _ _ _ _ (ix1 (rowC q)) (fun a => by
    match a with
    | ⟨0, _⟩ => exact rfl)

end Cert.HostGlue

end
-- ==== Proof.KernelValue.lean ====
/-
  The idealized kernel's result is the step of its launch arrays.

  Between the launch and the return the buffers pass four boundaries. The three host reshapes flatten the features to one
  row per node and turn the two perceptron biases into rows; the first region then leaves, in row `b · 4096 + n`, the message
  of node `(b, n)`. The second stretch of host operations folds that array back to `[batch, node, column]`, cuts each gate
  matrix into its reset, update and candidate blocks (rows `k`, `64 + k`, `128 + k`) and transposes them, and cuts the gate
  biases the same way. The second region then leaves the gate mix of every node. Reading each array the second region
  finds back to the launch arrays turns its result into `GruStep.step` of the ten arguments; no law of arithmetic is used,
  only where each entry sits.
-/
import proofs.«132970_j22282290331997_1_alg».proof.Proof.KernelRun
import proofs.«132970_j22282290331997_1_alg».proof.Proof.MlpRegion
import proofs.«132970_j22282290331997_1_alg».proof.Proof.GruRegion
import proofs.«132970_j22282290331997_1_alg».proof.Proof.HostGlue
import proofs.«132970_j22282290331997_1_alg».proof.Proof.GruStep

set_option maxRecDepth 16384

noncomputable section

namespace Cert.KernelValue

open Idealize.ShloMosaic Idealize.ShloMosaic.TcCoe Idealize.ShloMosaic.ValueIdx Idealize.SL.Sem
open Cert.KernelIdeal Cert.KernelIdeal.Gen Cert.GruStep Cert.HostGlue

variable (m : (ℓ : Loc nD τ sig) → Buf (Elt Ideal) ℓ) (ρ : Dev nD → PrngReg) (c : Dev nD)

/-- After the first region, row `b · 4096 + n` of its output array is the message of node `(b, n)`. -/
theorem messages_eq (b : Fin 4) (n : Fin 4096) (k : Fin 64) :
    V2 m ρ c main_v3 (ix2 (flatRow b n) k)
      = message (m ((c : Thread nD τ).loc main_arg0)) (m ((c : Thread nD τ).loc main_arg2)) (m ((c : Thread nD τ).loc main_arg3)) (m ((c : Thread nD τ).loc main_arg4)) (m ((c : Thread nD τ).loc main_arg5)) b n k := by
  have h : V2 m ρ c main_v3 = Cert.MlpRegion.messages (V1 m ρ c main_v0) (V1 m ρ c main_arg2) (V1 m ρ c main_v1) (V1 m ρ c main_arg4) (V1 m ρ c main_v2) :=
    (W2_arr m ρ c 5).trans (Cert.MlpRegion.array_eq (V1 m ρ) c)
  rw [h]
  show mlp (fun j => V1 m ρ c main_v0 (ix2 (flatRow b n) j)) (fun a b' => V1 m ρ c main_arg2 (ix2 a b')) (fun j => V1 m ρ c main_v1 (ix2 (0 : Fin 1) j))
      (fun a b' => V1 m ρ c main_arg4 (ix2 a b')) (fun j => V1 m ρ c main_v2 (ix2 (0 : Fin 1) j)) k = _
  rw [show (fun j => V1 m ρ c main_v0 (ix2 (flatRow b n) j)) = fun j => (m ((c : Thread nD τ).loc main_arg0)) (ix3 b n j) from funext fun j => entry0_rows m ρ c b n j,
    show (fun j => V1 m ρ c main_v1 (ix2 (0 : Fin 1) j)) = fun j => (m ((c : Thread nD τ).loc main_arg3)) (ix1 j) from funext fun j => entry0_b1 m ρ c j,
    show (fun j => V1 m ρ c main_v2 (ix2 (0 : Fin 1) j)) = fun j => (m ((c : Thread nD τ).loc main_arg5)) (ix1 j) from funext fun j => entry0_b2 m ρ c j,
    entry0_W1 m ρ c, entry0_W2 m ρ c]
  rfl

/-- THE RESULT: what the last region's write-backs leave in the result buffer is the step of the launch arrays. -/
theorem result_eq : W4 m ρ c (Proc.devRef .tc main_v29)
    = step (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine ((W4_arr m ρ c 15).trans (Cert.GruRegion.array_eq (V3 m ρ) c)).trans ?_
  funext i
  obtain ⟨b, n, k, rfl⟩ : ∃ (b : Fin 4) (n : Fin 4096) (k : Fin 64), i = ix3 b n k := ⟨i 0, i 1, i 2, eq_ix3 i⟩
  show Cert.GruRegion.updatedAt (V3 m ρ c main_arg1) (V3 m ρ c main_v4) (V3 m ρ c main_arg0) (V3 m ρ c main_v23) (V3 m ρ c main_v24) (V3 m ρ c main_v25)
      (V3 m ρ c main_v12) (V3 m ρ c main_v14) (V3 m ρ c main_v16) (V3 m ρ c main_v26) (V3 m ρ c main_v27) (V3 m ρ c main_v28)
      (V3 m ρ c main_v18) (V3 m ρ c main_v20) (V3 m ρ c main_v22) b n k
    = gateMix (gateIn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b n (rowR k))
        (gateIn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b n (rowZ k))
        (gateIn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b n (rowC k))
        (gateHid (m ((c : Thread nD τ).loc main_arg0)) (m ((c : Thread nD τ).loc main_arg8)) (m ((c : Thread nD τ).loc main_arg9)) b n (rowR k))
        (gateHid (m ((c : Thread nD τ).loc main_arg0)) (m ((c : Thread nD τ).loc main_arg8)) (m ((c : Thread nD τ).loc main_arg9)) b n (rowZ k))
        (gateHid (m ((c : Thread nD τ).loc main_arg0)) (m ((c : Thread nD τ).loc main_arg8)) (m ((c : Thread nD τ).loc main_arg9)) b n (rowC k))
        ((m ((c : Thread nD τ).loc main_arg0)) (ix3 b n k))
  have hagg : Cert.GruRegion.nodeAgg (V3 m ρ c main_arg1) (V3 m ρ c main_v4) b n
      = aggregated (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b n := funext fun j => by
    unfold Cert.GruRegion.nodeAgg aggregated
    rw [entry1_A m ρ c]
    exact congrArg (aggregate _) (funext fun n' => (entry1_messages m ρ c b n' j).trans (messages_eq m ρ c b n' j))
  unfold Cert.GruRegion.updatedAt gateIn gateHid
  rw [hagg, entry1_h m ρ c,
    show (fun j => V3 m ρ c main_v23 (ix2 j k)) = fun j => (m ((c : Thread nD τ).loc main_arg6)) (ix2 (rowR k) j) from funext fun j => entry1_wir m ρ c j k,
    show (fun j => V3 m ρ c main_v24 (ix2 j k)) = fun j => (m ((c : Thread nD τ).loc main_arg6)) (ix2 (rowZ k) j) from funext fun j => entry1_wiz m ρ c j k,
    show (fun j => V3 m ρ c main_v25 (ix2 j k)) = fun j => (m ((c : Thread nD τ).loc main_arg6)) (ix2 (rowC k) j) from funext fun j => entry1_wic m ρ c j k,
    show (fun j => V3 m ρ c main_v26 (ix2 j k)) = fun j => (m ((c : Thread nD τ).loc main_arg8)) (ix2 (rowR k) j) from funext fun j => entry1_whr m ρ c j k,
    show (fun j => V3 m ρ c main_v27 (ix2 j k)) = fun j => (m ((c : Thread nD τ).loc main_arg8)) (ix2 (rowZ k) j) from funext fun j => entry1_whz m ρ c j k,
    show (fun j => V3 m ρ c main_v28 (ix2 j k)) = fun j => (m ((c : Thread nD τ).loc main_arg8)) (ix2 (rowC k) j) from funext fun j => entry1_whc m ρ c j k,
    entry1_bir m ρ c k, entry1_biz m ρ c k, entry1_bic m ρ c k, entry1_bhr m ρ c k, entry1_bhz m ρ c k, entry1_bhc m ρ c k]

/-- THE RUN: every weakly fair execution of the idealized kernel ends with the result buffer at the step of the launch
    arrays and the ten arguments as launched. -/
theorem run : θ_run defs (onTc (τ := τ) (main (F := Ideal))) ⟨m, fun _ => 0, ρ⟩ (fun r => ∀ c : Dev nD,
      r.2.mem ((c.tc : Thread nD τ).loc main_v29) = step (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (Cert.KernelIdeal.GenP.frame_with_result m ρ)

end Cert.KernelValue

end
-- ==== Proof.RefIsStep.lean ====
import proofs.«132970_j22282290331997_1_alg».proof.Proof.Gen.ReferenceIdeal.Read
import proofs.«132970_j22282290331997_1_alg».proof.Proof.GruStep

noncomputable section

namespace Cert.RefStep

open Idealize.ShloMosaic Idealize.ShloMosaic.ValueIdx Cert.ReferenceIdeal Cert.ReferenceIdeal.Read Cert.GruStep

/-! The reference program, stage by stage, is the step of `GruStep`. Each stage is read at explicit coordinates
    `(b, n, k)`; the index functions the stages compose are identified with the coordinate constructors first. -/

section Stages

variable (x0 : (⟨S4x4096x64, .f32⟩ : BufTy).Contents (Elt Ideal)) (x1 : (⟨S4x4096x4096, .f32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S192x64, .f32⟩ : BufTy).Contents (Elt Ideal)) (x7 : (⟨S192, .f32⟩ : BufTy).Contents (Elt Ideal))
    (x8 : (⟨S192x64, .f32⟩ : BufTy).Contents (Elt Ideal)) (x9 : (⟨S192, .f32⟩ : BufTy).Contents (Elt Ideal))

/-! ## Index equations -/

-- first layer: row (b, n) of the features against column k of the first weight matrix; the bias at k
theorem lidx_v0 (b : Fin 4) (n : Fin 4096) (k j : Fin 64) : lidx_main_v0 (ix3 b n k) j = ix3 b n j :=
  funext fun a => Fin.ext (by match a with | ⟨0, _⟩ => rfl | ⟨1, _⟩ => rfl | ⟨2, _⟩ => rfl)
theorem ridx_v0 (b : Fin 4) (n : Fin 4096) (k j : Fin 64) : ridx_main_v0 (ix3 b n k) j = ix2 j k :=
  funext fun a => Fin.ext (by match a with | ⟨0, _⟩ => rfl | ⟨1, _⟩ => rfl)
theorem idx_v1v2 (b : Fin 4) (n : Fin 4096) (k : Fin 64) : idx_main_v1 (idx_main_v2 (ix3 b n k)) = ix1 k :=
  funext fun a => Fin.ext (by match a with | ⟨0, _⟩ => rfl)
-- second layer: the same pattern
theorem lidx_v5 (b : Fin 4) (n : Fin 4096) (k j : Fin 64) : lidx_main_v5 (ix3 b n k) j = ix3 b n j :=
  funext fun a => Fin.ext (by match a with | ⟨0, _⟩ => rfl | ⟨1, _⟩ => rfl | ⟨2, _⟩ => rfl)
theorem ridx_v5 (b : Fin 4) (n : Fin 4096) (k j : Fin 64) : ridx_main_v5 (ix3 b n k) j = ix2 j k :=
  funext fun a => Fin.ext (by match a with | ⟨0, _⟩ => rfl | ⟨1, _⟩ => rfl)
theorem idx_v6v7 (b : Fin 4) (n : Fin 4096) (k : Fin 64) : idx_main_v6 (idx_main_v7 (ix3 b n k)) = ix1 k :=
  funext fun a => Fin.ext (by match a with | ⟨0, _⟩ => rfl)
-- aggregation: row (b, i) of the adjacency against column k of the messages of batch b
theorem lidx_v10 (b : Fin 4) (i : Fin 4096) (k : Fin 64) (j : Fin 4096) : lidx_main_v10 (ix3 b i k) j = ix3 b i j :=
  funext fun a => Fin.ext (by match a with | ⟨0, _⟩ => rfl | ⟨1, _⟩ => rfl | ⟨2, _⟩ => rfl)
theorem ridx_v10 (b : Fin 4) (i : Fin 4096) (k : Fin 64) (j : Fin 4096) : ridx_main_v10 (ix3 b i k) j = ix3 b j k :=
  funext fun a => Fin.ext (by match a with | ⟨0, _⟩ => rfl | ⟨1, _⟩ => rfl | ⟨2, _⟩ => rfl)
-- the two gate matrices: row (b, n) against ROW g of the 192 x 64 matrix; the bias at g
theorem lidx_v12 (b : Fin 4) (n : Fin 4096) (g : Fin 192) (j : Fin 64) : lidx_main_v12 (ix3 b n g) j = ix3 b n j :=
  funext fun a => Fin.ext (by match a with | ⟨0, _⟩ => rfl | ⟨1, _⟩ => rfl | ⟨2, _⟩ => rfl)
theorem ridx_v12 (b : Fin 4) (n : Fin 4096) (g : Fin 192) (j : Fin 64) : ridx_main_v12 (ix3 b n g) j = ix2 g j :=
  funext fun a => Fin.ext (by match a with | ⟨0, _⟩ => rfl | ⟨1, _⟩ => rfl)
theorem idx_v13v14 (b : Fin 4) (n : Fin 4096) (g : Fin 192) : idx_main_v13 (idx_main_v14 (ix3 b n g)) = ix1 g :=
  funext fun a => Fin.ext (by match a with | ⟨0, _⟩ => rfl)
theorem lidx_v16 (b : Fin 4) (n : Fin 4096) (g : Fin 192) (j : Fin 64) : lidx_main_v16 (ix3 b n g) j = ix3 b n j :=
  funext fun a => Fin.ext (by match a with | ⟨0, _⟩ => rfl | ⟨1, _⟩ => rfl | ⟨2, _⟩ => rfl)
theorem ridx_v16 (b : Fin 4) (n : Fin 4096) (g : Fin 192) (j : Fin 64) : ridx_main_v16 (ix3 b n g) j = ix2 g j :=
  funext fun a => Fin.ext (by match a with | ⟨0, _⟩ => rfl | ⟨1, _⟩ => rfl)
theorem idx_v17v18 (b : Fin 4) (n : Fin 4096) (g : Fin 192) : idx_main_v17 (idx_main_v18 (ix3 b n g)) = ix1 g :=
  funext fun a => Fin.ext (by match a with | ⟨0, _⟩ => rfl)
-- the six slices: columns k, 64 + k and 128 + k of the 192
theorem idx_v20 (b : Fin 4) (n : Fin 4096) (k : Fin 64) : idx_main_v20 (ix3 b n k) = ix3 b n (rowR k) :=
  funext fun a => Fin.ext (by match a with | ⟨0, _⟩ => rfl | ⟨1, _⟩ => rfl | ⟨2, _⟩ => rfl)
theorem idx_v21 (b : Fin 4) (n : Fin 4096) (k : Fin 64) : idx_main_v21 (ix3 b n k) = ix3 b n (rowZ k) :=
  funext fun a => Fin.ext (by match a with | ⟨0, _⟩ => rfl | ⟨1, _⟩ => rfl | ⟨2, _⟩ => rfl)
theorem idx_v22 (b : Fin 4) (n : Fin 4096) (k : Fin 64) : idx_main_v22 (ix3 b n k) = ix3 b n (rowC k) :=
  funext fun a => Fin.ext (by match a with | ⟨0, _⟩ => rfl | ⟨1, _⟩ => rfl | ⟨2, _⟩ => rfl)
theorem idx_v23 (b : Fin 4) (n : Fin 4096) (k : Fin 64) : idx_main_v23 (ix3 b n k) = ix3 b n (rowR k) :=
  funext fun a => Fin.ext (by match a with | ⟨0, _⟩ => rfl | ⟨1, _⟩ => rfl | ⟨2, _⟩ => rfl)
theorem idx_v24 (b : Fin 4) (n : Fin 4096) (k : Fin 64) : idx_main_v24 (ix3 b n k) = ix3 b n (rowZ k) :=
  funext fun a => Fin.ext (by match a with | ⟨0, _⟩ => rfl | ⟨1, _⟩ => rfl | ⟨2, _⟩ => rfl)
theorem idx_v25 (b : Fin 4) (n : Fin 4096) (k : Fin 64) : idx_main_v25 (ix3 b n k) = ix3 b n (rowC k) :=
  funext fun a => Fin.ext (by match a with | ⟨0, _⟩ => rfl | ⟨1, _⟩ => rfl | ⟨2, _⟩ => rfl)

/-! ## The stages -/

/-- The first layer of the perceptron: `relu (h[b, n, :] · W1[:, k] + b1[k])`. -/
theorem layer1 (b : Fin 4) (n : Fin 4096) (k : Fin 64) :
    val_main_v4 (F := Ideal) x0 x2 x3 (ix3 b n k)
      = relu (lin (fun j => x0 (ix3 b n j)) (fun j => x2 (ix2 j k)) (x3 (ix1 k))) := by
  rw [val_main_v4_apply, val_main_v3_apply, val_main_v0_apply, val_main_v2_apply, val_main_v1_apply,
    val_main_call0_v0_apply, val_main_call0_cst_apply, idx_v1v2]
  simp only [Ideal.maximumf_def, Ideal.addf_def, Ideal.ofBits_def]
  unfold relu lin
  congr 2
  exact Finset.sum_congr rfl fun j _ => by rw [lidx_v0, ridx_v0]

/-- The second layer: the message of node `(b, n)`, column `k`. -/
theorem message_eq (b : Fin 4) (n : Fin 4096) (k : Fin 64) :
    val_main_v9 (F := Ideal) x0 x2 x3 x4 x5 (ix3 b n k) = message x0 x2 x3 x4 x5 b n k := by
  rw [val_main_v9_apply, val_main_v8_apply, val_main_v5_apply, val_main_v7_apply, val_main_v6_apply,
    val_main_call1_v0_apply, val_main_call1_cst_apply, idx_v6v7]
  simp only [Ideal.maximumf_def, Ideal.addf_def, Ideal.ofBits_def]
  unfold message mlp
  rw [relu, lin]
  congr 2
  exact Finset.sum_congr rfl fun j _ => by rw [lidx_v5, ridx_v5, layer1]

/-- The aggregation over the 4096 nodes of the batch, positive part. -/
theorem aggregated_eq (b : Fin 4) (i : Fin 4096) (k : Fin 64) :
    val_main_v11 (F := Ideal) x0 x1 x2 x3 x4 x5 (ix3 b i k) = aggregated x0 x1 x2 x3 x4 x5 b i k := by
  rw [val_main_v11_apply, val_main_v10_apply, val_main_call2_v0_apply, val_main_call2_cst_apply]
  simp only [Ideal.maximumf_def, Ideal.ofBits_def]
  unfold aggregated aggregate
  rw [relu]
  congr 1
  exact Finset.sum_congr rfl fun j _ => by rw [lidx_v10, ridx_v10, message_eq]

/-- The 192 gate pre-activations from the aggregated messages. -/
theorem gateIn_eq (b : Fin 4) (n : Fin 4096) (g : Fin 192) :
    val_main_v15 (F := Ideal) x0 x1 x2 x3 x4 x5 x6 x7 (ix3 b n g) = gateIn x0 x1 x2 x3 x4 x5 x6 x7 b n g := by
  rw [val_main_v15_apply, val_main_v12_apply, val_main_v14_apply, val_main_v13_apply, idx_v13v14]
  simp only [Ideal.addf_def]
  unfold gateIn
  rw [lin]
  congr 1
  exact Finset.sum_congr rfl fun j _ => by rw [lidx_v12, ridx_v12, aggregated_eq]

/-- The 192 gate pre-activations from the node's own state. -/
theorem gateHid_eq (b : Fin 4) (n : Fin 4096) (g : Fin 192) :
    val_main_v19 (F := Ideal) x0 x8 x9 (ix3 b n g) = gateHid x0 x8 x9 b n g := by
  rw [val_main_v19_apply, val_main_v16_apply, val_main_v18_apply, val_main_v17_apply, idx_v17v18]
  simp only [Ideal.addf_def]
  unfold gateHid
  rw [lin]
  congr 1
  exact Finset.sum_congr rfl fun j _ => by rw [lidx_v16, ridx_v16]

/-- The quotient `1 / (1 + exp (-x))`, with the word of one for both ones, is the logistic function. -/
theorem sigmoid_eq (x : EReal) :
    Ideal.div (Ideal.ofBits .f32 0x3F800000#32) (Ideal.ofBits .f32 0x3F800000#32 + Ideal.exp (-x)) = Ideal.logistic x := by
  have h : Ideal.ofBits .f32 0x3F800000#32 = (1 : EReal) := oneWord_eq
  rw [h]
  rfl

/-- The reset gate. -/
theorem reset_eq (b : Fin 4) (n : Fin 4096) (k : Fin 64) :
    val_main_v32 (F := Ideal) x0 x1 x2 x3 x4 x5 x6 x7 x8 x9 (ix3 b n k)
      = Ideal.logistic (gateIn x0 x1 x2 x3 x4 x5 x6 x7 b n (rowR k) + gateHid x0 x8 x9 b n (rowR k)) := by
  rw [val_main_v32_apply, val_main_v31_apply, val_main_cst_0_apply, val_main_v30_apply, val_main_v29_apply, val_main_cst_apply,
    val_main_v28_apply, val_main_v27_apply, val_main_v26_apply, val_main_v20_apply, val_main_v23_apply, idx_v20, idx_v23,
    gateIn_eq, gateHid_eq]
  simp only [Ideal.hostDivf_def, Ideal.addf_def, Ideal.hostUnary_exp_def, Ideal.hostNegf_def, Ideal.negf_def, Ideal.ofBits_def]
  exact sigmoid_eq _

/-- The update gate. -/
theorem update_eq (b : Fin 4) (n : Fin 4096) (k : Fin 64) :
    val_main_v39 (F := Ideal) x0 x1 x2 x3 x4 x5 x6 x7 x8 x9 (ix3 b n k)
      = Ideal.logistic (gateIn x0 x1 x2 x3 x4 x5 x6 x7 b n (rowZ k) + gateHid x0 x8 x9 b n (rowZ k)) := by
  rw [val_main_v39_apply, val_main_v38_apply, val_main_cst_2_apply, val_main_v37_apply, val_main_v36_apply, val_main_cst_1_apply,
    val_main_v35_apply, val_main_v34_apply, val_main_v33_apply, val_main_v21_apply, val_main_v24_apply, idx_v21, idx_v24,
    gateIn_eq, gateHid_eq]
  simp only [Ideal.hostDivf_def, Ideal.addf_def, Ideal.hostUnary_exp_def, Ideal.hostNegf_def, Ideal.negf_def, Ideal.ofBits_def]
  exact sigmoid_eq _

/-- The candidate state. -/
theorem candidate_eq (b : Fin 4) (n : Fin 4096) (k : Fin 64) :
    val_main_v42 (F := Ideal) x0 x1 x2 x3 x4 x5 x6 x7 x8 x9 (ix3 b n k)
      = Ideal.tanh (gateIn x0 x1 x2 x3 x4 x5 x6 x7 b n (rowC k)
          + Ideal.logistic (gateIn x0 x1 x2 x3 x4 x5 x6 x7 b n (rowR k) + gateHid x0 x8 x9 b n (rowR k)) * gateHid x0 x8 x9 b n (rowC k)) := by
  rw [val_main_v42_apply, val_main_v41_apply, val_main_v22_apply, val_main_v40_apply, reset_eq, val_main_v25_apply, idx_v22, idx_v25,
    gateIn_eq, gateHid_eq]
  simp only [Ideal.hostUnary_tanh_def, Ideal.addf_def, Ideal.mulf_def]

end Stages

/-- The reference program computes the step. -/
theorem val_eq_step (x0 : (⟨S4x4096x64, .f32⟩ : BufTy).Contents (Elt Ideal)) (x1 : (⟨S4x4096x4096, .f32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S192x64, .f32⟩ : BufTy).Contents (Elt Ideal)) (x7 : (⟨S192, .f32⟩ : BufTy).Contents (Elt Ideal))
    (x8 : (⟨S192x64, .f32⟩ : BufTy).Contents (Elt Ideal)) (x9 : (⟨S192, .f32⟩ : BufTy).Contents (Elt Ideal)) :
    val_main_v47 (F := Ideal) x0 x1 x2 x3 x4 x5 x6 x7 x8 x9 = Cert.GruStep.step x0 x1 x2 x3 x4 x5 x6 x7 x8 x9 := by
  funext i
  obtain ⟨b, n, k, rfl⟩ : ∃ (b : Fin 4) (n : Fin 4096) (k : Fin 64), i = ix3 b n k := ⟨i 0, i 1, i 2, eq_ix3 i⟩
  rw [val_main_v47_apply, val_main_v45_apply, val_main_v44_apply, val_main_v43_apply, val_main_cst_3_apply, val_main_v46_apply,
    update_eq, candidate_eq]
  simp only [Ideal.addf_def, Ideal.mulf_def, Ideal.subf_def, Ideal.ofBits_def]
  rfl

end Cert.RefStep

end
-- ==== Proof.lean ====
/-
  The certificate of one step of message passing on a dense graph with a gated recurrent update.

  Both programs compute, for every node `(b, n)` and column `k`, the same function of the ten argument arrays
  (`Cert.GruStep.step`): the message of a node is a two-layer perceptron of its feature row; a node aggregates the messages of
  its batch with its row of the adjacency matrix and takes the positive part; three gate pre-activations come from the
  aggregate and three from the node's own row, each an inner product with a row of a gate matrix plus a bias; the new state
  is `(1 - z) · tanh (i_c + r · g_c) + z · h` with `r`, `z` the logistic of the summed reset and update pre-activations.

  The kernel does it in two regions: the perceptron over the features flattened to one row per node (eight tiles of 2048
  rows), then, per batch and tile of 512 nodes, the adjacency tile times the batch's messages and the gates, reading the
  gate matrices cut into their three blocks and transposed by host operations in between. Its narrowing of operands before
  each matrix product is the identity on extended reals, and a matrix product into a zero accumulator is the plain sum. The
  reference does it with five contractions over whole arrays and spells the logistic out as `1 / (1 + exp (-x))`, which is
  the logistic function once its constant word is read as one.

  No law of arithmetic beyond that reading is used: the two sides are the same sums of the same products, so the
  precondition (finite inputs) is never opened. The three frames are the generated ones (the reference's is its run with
  the result dropped); the ideal pass rewrote nothing, so `preserves` is trivial.
-/
import proofs.«132970_j22282290331997_1_alg».proof.Defs
import proofs.«132970_j22282290331997_1_alg».proof.Proof.Gen.Kernel
import proofs.«132970_j22282290331997_1_alg».proof.Proof.Gen.Kernel.Frame
import proofs.«132970_j22282290331997_1_alg».proof.Proof.Gen.KernelIdeal
import proofs.«132970_j22282290331997_1_alg».proof.Proof.Gen.KernelIdeal.Frame
import proofs.«132970_j22282290331997_1_alg».proof.Proof.Gen.ReferenceIdeal
import proofs.«132970_j22282290331997_1_alg».proof.Proof.Gen.ReferenceIdeal.Run
import proofs.«132970_j22282290331997_1_alg».proof.Proof.Gen.ReferenceIdeal.Read
import proofs.«132970_j22282290331997_1_alg».proof.Proof.Gen.Pre_finite_inputs
import proofs.«132970_j22282290331997_1_alg».proof.Proof.KernelValue
import proofs.«132970_j22282290331997_1_alg».proof.Proof.RefIsStep
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernel_ideal : Cert.frame_KernelIdeal := fun m ρ _ => Cert.KernelIdeal.Gen.frame m ρ

/-- The idealized reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the step of those arguments as their result. -/
theorem algebraic : Cert.algebraic_KernelIdeal_ReferenceIdeal := by
  intro m ρ m' ρ' _ hagree
  refine ⟨fun c => Cert.GruStep.step (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v47_eq, Cert.RefStep.val_eq_step, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
